-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2 : Shape := ⟨3, ![8, 2048, 2]⟩
abbrev S_ : Shape := ⟨0, ![]⟩

class Facts : Prop where
  bcast_S_S8x2048x2 : S_.BroadcastsInDim S8x2048x2 (![] : Fin 0 → Fin S8x2048x2.rank)
  reducesTo_S8x2048x2_S_d0_1_2 : S8x2048x2.ReducesTo [0, 1, 2] S_
  h_S_ : 0 < S_.numel

variable [Facts]

def fn {F : FTy → Type} [FloatOps F] (main_arg0 : FVec F S8x2048x2 .f32) (main_arg1 : FVec F S8x2048x2 .f32) : IVec S_ 1 :=
  let main_v0 : FVec F S8x2048x2 .f32 := Host.absf main_arg0
  let main_cst : FVec F S_ .f32 := constant S_ .f32 0x7F800000#32
  let main_v1 : FVec F S8x2048x2 .f32 := broadcastInDim S8x2048x2 ![] bcast_S_S8x2048x2 main_cst
  let main_v2 : IVec S8x2048x2 1 := cmpf .olt main_v0 main_v1
  let main_c : IVec S_ 1 := constantI S_ 1 1#1
  let main_v3 : IVec S_ 1 := (fun x v => Host.reduce IntOp.andi x v reducesTo_S8x2048x2_S_d0_1_2 h_S_) main_v2 main_c
  let main_v4 : FVec F S8x2048x2 .f32 := Host.absf main_arg1
  let main_cst_0 : FVec F S_ .f32 := constant S_ .f32 0x7F800000#32
  let main_v5 : FVec F S8x2048x2 .f32 := broadcastInDim S8x2048x2 ![] bcast_S_S8x2048x2 main_cst_0
  let main_v6 : IVec S8x2048x2 1 := cmpf .olt main_v4 main_v5
  let main_c_1 : IVec S_ 1 := constantI S_ 1 1#1
  let main_v7 : IVec S_ 1 := (fun x v => Host.reduce IntOp.andi x v reducesTo_S8x2048x2_S_d0_1_2 h_S_) main_v6 main_c_1
  let main_v8 : IVec S_ 1 := andi main_v3 main_v7
  main_v8
-- ==== Kernel.lean ====
abbrev S8x2048x2 : Shape := ⟨3, ![8, 2048, 2]⟩
abbrev S8x2x2048 : Shape := ⟨3, ![8, 2, 2048]⟩
abbrev S8x1x2048 : Shape := ⟨3, ![8, 1, 2048]⟩
abbrev S1x2x2048 : Shape := ⟨3, ![1, 2, 2048]⟩
abbrev S1x2x256 : Shape := ⟨3, ![1, 2, 256]⟩
abbrev S1x1x2048 : Shape := ⟨3, ![1, 1, 2048]⟩
abbrev S1x1x256 : Shape := ⟨3, ![1, 1, 256]⟩
abbrev S1x256 : Shape := ⟨2, ![1, 256]⟩
abbrev S1x1x512 : Shape := ⟨3, ![1, 1, 512]⟩
abbrev S1x512 : Shape := ⟨2, ![1, 512]⟩
abbrev S1x512x1 : Shape := ⟨3, ![1, 512, 1]⟩
abbrev S1x512x256 : Shape := ⟨3, ![1, 512, 256]⟩
abbrev S8x2048 : Shape := ⟨2, ![8, 2048]⟩
abbrev S_ : Shape := ⟨0, ![]⟩
abbrev S8 : Shape := ⟨1, ![8]⟩

abbrev nBuf : Space → Nat
  | .hbm => 28
  | .vmem => 7
  | .smem => 0
  | _ => 0

abbrev bufTy : (tb : Table) → Fin (tcTables nBuf tb) → BufTy
  | .hbm, ⟨0, _⟩ => ⟨S8x2048x2, .f32⟩
  | .hbm, ⟨1, _⟩ => ⟨S8x2048x2, .f32⟩
  | .hbm, ⟨2, _⟩ => ⟨S8x2x2048, .f32⟩
  | .hbm, ⟨3, _⟩ => ⟨S8x2x2048, .f32⟩
  | .hbm, ⟨4, _⟩ => ⟨S8x1x2048, .f32⟩
  | .hbm, ⟨5, _⟩ => ⟨S8x1x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x2x2048, .f32⟩
  | .local _ .vmem, ⟨1, _⟩ => ⟨S1x2x256, .f32⟩
  | .local _ .vmem, ⟨2, _⟩ => ⟨S1x2x256, .f32⟩
  | .local _ .vmem, ⟨3, _⟩ => ⟨S1x1x2048, .f32⟩
  | .local _ .vmem, ⟨4, _⟩ => ⟨S1x1x2048, .f32⟩
  | .local _ .vmem, ⟨5, _⟩ => ⟨S1x1x256, .f32⟩
  | .local _ .vmem, ⟨6, _⟩ => ⟨S1x1x256, .f32⟩
  | _, _ => ⟨S8x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 : BitVec 32 :=
  let c0_i32_5 : BitVec 32 := 0#32
  let c512_i32 : BitVec 32 := 512#32
  let v8 : BitVec 32 := Scalar.muli c0_i32_5 c512_i32
  v8
def k0_off1 (c0_i32_5 : BitVec 32) : Fin 3 → Nat :=
  let c0_6 : Index := 0#32
  let c0_7 : Index := 0#32
  let c512_i32 : BitVec 32 := 512#32
  let v8 : BitVec 32 := Scalar.muli c0_i32_5 c512_i32
  let v9 : BitVec 32 := v8
  let v10 : Index := Scalar.indexCast v9
  ![0, 0, v10.toNat]
def k0_off2 (c0_i32_5 : BitVec 32) : Fin 3 → Nat :=
  let c0_8 : Index := 0#32
  let c1_9 : Index := 1#32
  let c512_i32 : BitVec 32 := 512#32
  let v8 : BitVec 32 := Scalar.muli c0_i32_5 c512_i32
  let v9 : BitVec 32 := v8
  let v13 : Index := Scalar.indexCast v9
  ![0, 1, v13.toNat]
def k0_off3 (c0_i32_5 : BitVec 32) : Fin 3 → Nat :=
  let c0_10 : Index := 0#32
  let c0_11 : Index := 0#32
  let c512_i32 : BitVec 32 := 512#32
  let v8 : BitVec 32 := Scalar.muli c0_i32_5 c512_i32
  let v9 : BitVec 32 := v8
  let v29 : Index := Scalar.indexCast v9
  ![0, 0, v29.toNat]
def k0_mult2 : BitVec 32 :=
  let c1_i32 : BitVec 32 := 1#32
  let c512_i32_16 : BitVec 32 := 512#32
  let v40 : BitVec 32 := Scalar.muli c1_i32 c512_i32_16
  v40
def k0_mult3 : BitVec 32 :=
  let c2_i32 : BitVec 32 := 2#32
  let c512_i32_27 : BitVec 32 := 512#32
  let v72 : BitVec 32 := Scalar.muli c2_i32 c512_i32_27
  v72
def k0_mult4 : BitVec 32 :=
  let c3_i32 : BitVec 32 := 3#32
  let c512_i32_38 : BitVec 32 := 512#32
  let v104 : BitVec 32 := Scalar.muli c3_i32 c512_i32_38
  v104
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x2048x2_S8x2x2048_0_2_1 : S8x2048x2.Transposes [0, 2, 1] S8x2x2048
  inb_S1x1x2048_S1x1x2048_0_0_0 : ∀ a, (![0, 0, 0] : Fin 3 → Nat) a + S1x1x2048.size a ≤ S1x1x2048.size a
  h_S1x1x2048 : 0 < S1x1x2048.numel
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  inb_S1x2x256_S1x1x256_0_1_0 : ∀ a, (![0, 1, 0] : Fin 3 → Nat) a + S1x1x256.size a ≤ S1x2x256.size a
  h_S1x1x512 : 0 < S1x1x512.numel
  shapeCasts_S1x1x512_S1x512 : S1x1x512.ShapeCasts S1x512
  shapeCasts_S1x512_S1x512x1 : S1x512.ShapeCasts S1x512x1
  shapeCasts_S1x256_S1x1x256 : S1x256.ShapeCasts S1x1x256
  broadcasts_S1x512x1_S1x512x256 : S1x512x1.Broadcasts S1x512x256
  broadcasts_S1x1x256_S1x512x256 : S1x1x256.Broadcasts S1x512x256
  reduces_S1x512x256_S1x512 : S1x512x256.Reduces [2] S1x512
  shapeCasts_S1x512_S1x1x512 : S1x512.ShapeCasts S1x1x512
  reduces_S1x512x256_S1x256 : S1x512x256.Reduces [1] S1x256
  inb_S1x1x256_S1x1x256_0_0_0 : ∀ a, (![0, 0, 0] : Fin 3 → Nat) a + S1x1x256.size a ≤ S1x1x256.size a
  shapeCasts_S8x1x2048_S8x2048 : S8x1x2048.ShapeCasts S8x2048
  reducesTo_S8x2048_S8_d1 : S8x2048.ReducesTo [1] S8
  h_S_ : 0 < S_.numel
  bcast_S_S8 : S_.BroadcastsInDim S8 (![] : Fin 0 → Fin S8.rank)
  reducesTo_S8_S_d0 : S8.ReducesTo [0] S_
  hrank0 : 0 < grid0.rank
  k0_mult1_dvd : 512 ∣ k0_mult1.toNat
  k0_off1_inb : ∀ (r : Fin 4), ∀ a, (k0_off1 (BitVec.ofNat 32 r.val)) a + S1x1x512.size a ≤ S1x2x2048.size a
  k0_off2_inb : ∀ (r : Fin 4), ∀ a, (k0_off2 (BitVec.ofNat 32 r.val)) a + S1x1x512.size a ≤ S1x2x2048.size a
  k0_off3_inb : ∀ (r : Fin 4), ∀ a, (k0_off3 (BitVec.ofNat 32 r.val)) a + S1x1x512.size a ≤ S1x1x2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2x2048.size a ≤ S8x2x2048.size a
  hwx0_0 : ∀ i : grid0.Coords, EltTy.bits .f32 = 32 ∨ (Rect.block (s := S8x2x2048) S1x2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256.size a ≤ S8x2x2048.size a
  hwx0_1 : ∀ i : grid0.Coords, EltTy.bits .f32 = 32 ∨ (Rect.block (s := S8x2x2048) S1x2x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x2048.size a
  hwx0_3 : ∀ i : grid0.Coords, EltTy.bits .f32 = 32 ∨ (Rect.block (s := S8x1x2048) S1x1x256.size (cc0_transform_3 i) (hinb0_3 i)).WholeWords (EltTy.packing .f32)

variable [Facts₀]

abbrev win0_0 : Pipeline.Window sig grid0 :=
  Pipeline.Window.ofSpec (Memref.whole main_v0) S1x2x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2 : Shape := ⟨3, ![8, 2048, 2]⟩
abbrev S8x2048x1x2 : Shape := ⟨4, ![8, 2048, 1, 2]⟩
abbrev S8x1x2048x2 : Shape := ⟨4, ![8, 1, 2048, 2]⟩
abbrev S8x2048x2048x2 : Shape := ⟨4, ![8, 2048, 2048, 2]⟩
abbrev S_ : Shape := ⟨0, ![]⟩
abbrev S8x2048x2048 : Shape := ⟨3, ![8, 2048, 2048]⟩
abbrev S8x2048 : Shape := ⟨2, ![8, 2048]⟩
abbrev S8 : Shape := ⟨1, ![8]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x2, .f32⟩
  | .hbm, ⟨1, _⟩ => ⟨S8x2048x2, .f32⟩
  | .hbm, ⟨2, _⟩ => ⟨S8x2048x1x2, .f32⟩
  | .hbm, ⟨3, _⟩ => ⟨S8x1x2048x2, .f32⟩
  | .hbm, ⟨4, _⟩ => ⟨S8x2048x2048x2, .f32⟩
  | .hbm, ⟨5, _⟩ => ⟨S8x2048x2048x2, .f32⟩
  | .hbm, ⟨6, _⟩ => ⟨S8x2048x2048x2, .f32⟩
  | .hbm, ⟨7, _⟩ => ⟨S8x2048x2048x2, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S8x2048x2_S8x2048x1x2_0_1_3 : S8x2048x2.BroadcastsInDim S8x2048x1x2 (![0, 1, 3] : Fin 3 → Fin S8x2048x1x2.rank)
  bcast_S8x2048x2_S8x1x2048x2_0_2_3 : S8x2048x2.BroadcastsInDim S8x1x2048x2 (![0, 2, 3] : Fin 3 → Fin S8x1x2048x2.rank)
  bcast_S8x2048x1x2_S8x2048x2048x2_0_1_2_3 : S8x2048x1x2.BroadcastsInDim S8x2048x2048x2 (![0, 1, 2, 3] : Fin 4 → Fin S8x2048x2048x2.rank)
  bcast_S8x1x2048x2_S8x2048x2048x2_0_1_2_3 : S8x1x2048x2.BroadcastsInDim S8x2048x2048x2 (![0, 1, 2, 3] : Fin 4 → Fin S8x2048x2048x2.rank)
  reducesTo_S8x2048x2048x2_S8x2048x2048_d3 : S8x2048x2048x2.ReducesTo [3] S8x2048x2048
  h_S_ : 0 < S_.numel
  reducesTo_S8x2048x2048_S8x2048_d2 : S8x2048x2048.ReducesTo [2] S8x2048
  reducesTo_S8x2048x2048_S8x2048_d1 : S8x2048x2048.ReducesTo [1] S8x2048
  reducesTo_S8x2048_S8_d1 : S8x2048.ReducesTo [1] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.LibSqrtInf.lean ====
/-
  General facts about the extended reals at the ideal instance.

  * The square root is monotone, so it commutes with the infimum of a finite family (the empty family included:
    the root of +infinity is +infinity):  sqrt (inf_i f i) = inf_i sqrt (f i).
  * A fold of `min` from +infinity over a finite family is its infimum (`Finset.inf`).
  * The f32 patterns of +infinity, 1/2 and 2; multiplying by 1/2 is dividing by 2, at the infinities too.
  Standalone: needs only the ideal instance's definitions.
-/
import Idealize.ShloMosaic.PureOps.Ideal

noncomputable section

namespace Cert.Lib.SqrtInf

open Idealize.ShloMosaic

/-- The pattern 0x7F800000 is +infinity. -/
theorem ofBits_inf : Ideal.ofBits .f32 0x7F800000#32 = ⊤ := by
  simp [Ideal.ofBits, Ideal.ieee]

/-- The pattern 0x3F000000 is 1/2. -/
theorem ofBits_half : Ideal.ofBits .f32 0x3F000000#32 = ((1 / 2 : ℝ) : EReal) := by
  simp [Ideal.ofBits, Ideal.ieee, -EReal.coe_mul]; norm_num

/-- The pattern 0x40000000 is 2. -/
theorem ofBits_two : Ideal.ofBits .f32 0x40000000#32 = ((2 : ℝ) : EReal) := by
  simp [Ideal.ofBits, Ideal.ieee, -EReal.coe_mul]; norm_num

/-- x · ½ = x / 2 on every extended real. -/
theorem mul_half (x : EReal) :
    x * Ideal.ofBits .f32 0x3F000000#32 = Ideal.div x (Ideal.ofBits .f32 0x40000000#32) := by
  rw [ofBits_half, ofBits_two, Ideal.div_coe (by norm_num : (2 : ℝ) ≠ 0)]

/-- The square root of the ideal instance is monotone on the extended reals (its value below zero is -infinity). -/
theorem sqrt_mono : Monotone Ideal.sqrt := by
  intro x y h
  induction x using EReal.rec with
  | bot => rw [Ideal.sqrt_bot]; exact bot_le
  | top =>
    have hy : y = ⊤ := top_le_iff.mp h
    subst hy; exact le_rfl
  | coe r =>
    induction y using EReal.rec with
    | bot => exact absurd (le_bot_iff.mp h) (EReal.coe_ne_bot r)
    | top => rw [Ideal.sqrt_top]; exact le_top
    | coe s =>
      have hrs : r ≤ s := EReal.coe_le_coe_iff.mp h
      rw [Ideal.sqrt_coe, Ideal.sqrt_coe]
      by_cases hr : r < 0
      · rw [if_pos hr]; exact bot_le
      · rw [if_neg hr, if_neg (by linarith : ¬ s < 0)]
        exact EReal.coe_le_coe_iff.mpr (Real.sqrt_le_sqrt hrs)

/-- sqrt (inf_i f i) = inf_i sqrt (f i) over a finite family. -/
theorem sqrt_inf {ι : Type} (s : Finset ι) (f : ι → EReal) :
    Ideal.sqrt (s.inf f) = s.inf fun i => Ideal.sqrt (f i) :=
  Finset.comp_inf_eq_inf_comp Ideal.sqrt (fun a b => sqrt_mono.map_inf a b) Ideal.sqrt_top

/-- A fold of `min` from +infinity is the infimum. -/
theorem fold_min_top {ι : Type} (s : Finset ι) (f : ι → EReal) : s.fold min ⊤ f = s.inf f := rfl

end Cert.Lib.SqrtInf

end
-- ==== Proof.SqrtMin.lean ====
/-
  Infima over 2048 points taken tile by tile, and what both programs are shown to compute.

  * The infimum of f over the first k indices of Fin 2048, extended by one tile of 256, is the infimum over the
    first k + 256 indices; over zero indices it is +infinity and over all 2048 it is the infimum of f.
  * The infimum over Fin 2048 is the minimum of the four infima over its consecutive chunks of 512.

  It also states what both programs are shown to compute from two arrays p, q of 8 batch rows of 2048 plane points
  ([8,2048,2]: the last axis holds x and y): with  d b n m  the squared distance between point n of p and point m of
  q in batch row b, the arrays  XR b n = inf_m sqrt (d b n m)  and  YR b m = inf_n sqrt (d b n m).
-/
import proofs.«113054_j11544872092235_2_alg».proof.Proof.LibSqrtInf
import Idealize.ShloMosaic.PureOps.Ideal
import Idealize.ShloMosaic.Lib.ValueIdx

noncomputable section

namespace Chamfer

open Idealize.ShloMosaic Idealize.ShloMosaic.ValueIdx Cert.Lib.SqrtInf

/-! ## Infima over Fin 2048 by tiles -/

/-- The infimum of f over the indices below k. -/
def prefixInf (f : Fin 2048 → EReal) (k : ℕ) : EReal :=
  (Finset.univ.filter fun m : Fin 2048 => m.val < k).inf f

theorem prefixInf_zero (f : Fin 2048 → EReal) : prefixInf f 0 = ⊤ := by
  unfold prefixInf
  rw [Finset.filter_false_of_mem (fun m _ => Nat.not_lt_zero _), Finset.inf_empty]

theorem prefixInf_all (f : Fin 2048 → EReal) : prefixInf f 2048 = Finset.univ.inf f := by
  unfold prefixInf
  rw [Finset.filter_true_of_mem (fun m _ => m.isLt)]

/-- One more tile of 256 indices. -/
theorem prefixInf_step (f : Fin 2048 → EReal) (o : ℕ) (ho : o + 256 ≤ 2048) :
    min (prefixInf f o) (Finset.univ.inf fun cc : Fin 256 => f ⟨o + cc.val, by have := cc.isLt; omega⟩)
      = prefixInf f (o + 256) := by
  refine eq_of_forall_le_iff fun c => ?_
  unfold prefixInf
  simp only [le_min_iff, Finset.le_inf_iff, Finset.mem_filter, Finset.mem_univ, true_and, forall_true_left]
  constructor
  · rintro ⟨h1, h2⟩ m hm
    by_cases hlt : m.val < o
    · exact h1 m hlt
    · have hcc : m.val - o < 256 := by omega
      have := h2 ⟨m.val - o, hcc⟩
      have e : (⟨o + (m.val - o), by omega⟩ : Fin 2048) = m := Fin.ext (by show o + (m.val - o) = m.val; omega)
      rw [e] at this; exact this
  · intro h
    exact ⟨fun m hm => h m (by omega), fun cc => h _ (by show o + cc.val < o + 256; have := cc.isLt; omega)⟩

/-- The infimum over Fin 2048 from its four chunks of 512, folded in from +infinity in order. -/
theorem inf_four_chunks (f : Fin 2048 → EReal) :
    min (min (min (min ⊤
      (Finset.univ.inf fun r : Fin 512 => f ⟨0 + r.val, by have := r.isLt; omega⟩))
      (Finset.univ.inf fun r : Fin 512 => f ⟨512 + r.val, by have := r.isLt; omega⟩))
      (Finset.univ.inf fun r : Fin 512 => f ⟨1024 + r.val, by have := r.isLt; omega⟩))
      (Finset.univ.inf fun r : Fin 512 => f ⟨1536 + r.val, by have := r.isLt; omega⟩)
      = Finset.univ.inf f := by
  refine eq_of_forall_le_iff fun c => ?_
  simp only [le_min_iff, Finset.le_inf_iff, Finset.mem_univ, forall_true_left, le_top, true_and]
  constructor
  · rintro ⟨⟨⟨h0, h1⟩, h2⟩, h3⟩ n
    have hn := n.isLt
    by_cases c0 : n.val < 512
    · have := h0 ⟨n.val, c0⟩
      have e : (⟨0 + n.val, by omega⟩ : Fin 2048) = n := Fin.ext (by show 0 + n.val = n.val; omega)
      rw [e] at this; exact this
    · by_cases c1 : n.val < 1024
      · have := h1 ⟨n.val - 512, by omega⟩
        have e : (⟨512 + (n.val - 512), by omega⟩ : Fin 2048) = n := Fin.ext (by show 512 + (n.val - 512) = n.val; omega)
        rw [e] at this; exact this
      · by_cases c2 : n.val < 1536
        · have := h2 ⟨n.val - 1024, by omega⟩
          have e : (⟨1024 + (n.val - 1024), by omega⟩ : Fin 2048) = n := Fin.ext (by show 1024 + (n.val - 1024) = n.val; omega)
          rw [e] at this; exact this
        · have := h3 ⟨n.val - 1536, by omega⟩
          have e : (⟨1536 + (n.val - 1536), by omega⟩ : Fin 2048) = n := Fin.ext (by show 1536 + (n.val - 1536) = n.val; omega)
          rw [e] at this; exact this
  · intro h
    exact ⟨⟨⟨fun r => h _, fun r => h _⟩, fun r => h _⟩, fun r => h _⟩

/-! ## The distances -/

/-- The squared distance between the plane points (px, py) and (qx, qy). -/
def sqd (px py qx qy : EReal) : EReal := (px - qx) * (px - qx) + (py - qy) * (py - qy)

/-- d b n m over point-major arrays [8,2048,2]. -/
def dpt (p q : (⟨3, ![8, 2048, 2]⟩ : Shape).Idx → EReal) (b : Fin 8) (n m' : Fin 2048) : EReal :=
  sqd (p (ix3 b n (0 : Fin 2))) (p (ix3 b n (1 : Fin 2))) (q (ix3 b m' (0 : Fin 2))) (q (ix3 b m' (1 : Fin 2)))

/-- XR b n: the distance from point n of p to the nearest point of q. -/
def XR (p q : (⟨3, ![8, 2048, 2]⟩ : Shape).Idx → EReal) : (⟨2, ![8, 2048]⟩ : Shape).Idx → EReal :=
  fun i => Finset.univ.inf fun m' : Fin 2048 => Ideal.sqrt (dpt p q (i 0) (i 1) m')

/-- YR b m: the distance from point m of q to the nearest point of p. -/
def YR (p q : (⟨3, ![8, 2048, 2]⟩ : Shape).Idx → EReal) : (⟨2, ![8, 2048]⟩ : Shape).Idx → EReal :=
  fun i => Finset.univ.inf fun n : Fin 2048 => Ideal.sqrt (dpt p q (i 0) n (i 1))

end Chamfer

end
-- ==== Proof.Tile.lean ====
/-
  The kernel body's arithmetic, read at an index over the extended reals.

  One chunk of the body takes 512 points p (rows px, py) and 256 points q (rows qx, qy) and forms the 512 x 256 tile
  of squared distances  (px r - qx c)^2 + (py r - qy c)^2.  From a tile it takes the minimum along each row (over the
  256 points q), folded into the running row minimum, and the minimum down each column (over the 512 points p).
  Both minima start from +infinity, so each is the infimum of the row, respectively the column.
-/
import proofs.«113054_j11544872092235_2_alg».proof.Proof.Gen.KernelIdeal.Skeleton
import proofs.«113054_j11544872092235_2_alg».proof.Proof.SqrtMin
import Idealize.ShloMosaic.Lib.ValueIdx
import Idealize.ShloMosaic.Lib.ValueLayout
import Idealize.ShloMosaic.Lib.Pipeline.Value
import Idealize.ShloMosaic.PureOps.Ideal.Laws

noncomputable section

namespace Chamfer

open Idealize.ShloMosaic Idealize.ShloMosaic.ValueIdx
open Cert.KernelIdeal Cert.KernelIdeal.Gen Cert.Lib.SqrtInf

section Generic

variable {F : FTy → Type} [FloatOps F]

/-- The tile of squared distances between 512 points p and 256 points q, as the body computes it:
    each coordinate row of p spread along the columns, each coordinate row of q spread down the rows. -/
def dist2 (qx qy : FVec F S1x256 .f32) (px py : FVec F S1x512 .f32) : FVec F S1x512x256 .f32 :=
  addf
    (mulf
      (subf (broadcastTo S1x512x256 (shapeCast S1x512x1 px shapeCasts_S1x512_S1x512x1) broadcasts_S1x512x1_S1x512x256)
        (broadcastTo S1x512x256 (shapeCast S1x1x256 qx shapeCasts_S1x256_S1x1x256) broadcasts_S1x1x256_S1x512x256))
      (subf (broadcastTo S1x512x256 (shapeCast S1x512x1 px shapeCasts_S1x512_S1x512x1) broadcasts_S1x512x1_S1x512x256)
        (broadcastTo S1x512x256 (shapeCast S1x1x256 qx shapeCasts_S1x256_S1x1x256) broadcasts_S1x1x256_S1x512x256)))
    (mulf
      (subf (broadcastTo S1x512x256 (shapeCast S1x512x1 py shapeCasts_S1x512_S1x512x1) broadcasts_S1x512x1_S1x512x256)
        (broadcastTo S1x512x256 (shapeCast S1x1x256 qy shapeCasts_S1x256_S1x1x256) broadcasts_S1x1x256_S1x512x256))
      (subf (broadcastTo S1x512x256 (shapeCast S1x512x1 py shapeCasts_S1x512_S1x512x1) broadcasts_S1x512x1_S1x512x256)
        (broadcastTo S1x512x256 (shapeCast S1x1x256 qy shapeCasts_S1x256_S1x1x256) broadcasts_S1x1x256_S1x512x256)))

/-- The row minimum of a tile folded into the running minimum `cur`, as a [1,1,512] block. -/
def rowMinInto (cur : FVec F S1x512 .f32) (T : FVec F S1x512x256 .f32) : FVec F S1x1x512 .f32 :=
  shapeCast S1x1x512
    (minimumf cur (multiReduction .minimumf [2] S1x512 T 0x7F800000#32 reduces_S1x512x256_S1x512 (.inl rfl) rfl))
    shapeCasts_S1x512_S1x1x512

/-- The column minimum of a tile. -/
def colMin (T : FVec F S1x512x256 .f32) : FVec F S1x256 .f32 :=
  multiReduction .minimumf [1] S1x256 T 0x7F800000#32 reduces_S1x512x256_S1x256 (.inl rfl) rfl

/-- A [1,1,512] load as a row of 512. -/
abbrev row512 (v : Vec F S1x1x512 .f32) : FVec F S1x512 .f32 := shapeCast S1x512 v shapeCasts_S1x1x512_S1x512
/-- A [1,1,256] load as a row of 256. -/
abbrev row256 (v : Vec F S1x1x256 .f32) : FVec F S1x256 .f32 := shapeCast S1x256 v shapeCasts_S1x1x256_S1x256

/-! The body's four tiles are `dist2` of its loads, and its stored values the two minima of them. -/

theorem pay8_eq (v3 v5 : Vec F S1x1x256 .f32) (v11 v14 : Vec F S1x1x512 .f32) :
    k0_pay8 v3 v5 v11 v14 = dist2 (row256 v3) (row256 v5) (row512 v11) (row512 v14) := rfl

theorem pay11_eq (v4 v6 : FVec F S1x256 .f32) (v43 v46 : Vec F S1x1x512 .f32) :
    k0_pay11 v4 v6 v43 v46 = dist2 v4 v6 (row512 v43) (row512 v46) := rfl

theorem pay15_eq (v4 v6 : FVec F S1x256 .f32) (v76 : FVec F S1x512 .f32) (v78 : Vec F S1x1x512 .f32) :
    k0_pay15 v4 v6 v76 v78 = dist2 v4 v6 v76 (row512 v78) := rfl

theorem pay1_eq (v4 v6 : FVec F S1x256 .f32) (v107 v110 : Vec F S1x1x512 .f32) :
    k0_pay1 (k0_pay18 v4 v107) (k0_pay19 v6 v110) = dist2 v4 v6 (row512 v107) (row512 v110) := rfl

theorem pay10_eq (v3 v5 : Vec F S1x1x256 .f32) (v11 v14 v30 : Vec F S1x1x512 .f32) :
    k0_pay10 (k0_pay9 v3 v5 v11 v14 v30) = rowMinInto (row512 v30) (k0_pay8 v3 v5 v11 v14) := rfl

theorem pay12_eq (v4 v6 : FVec F S1x256 .f32) (v43 v46 v62 : Vec F S1x1x512 .f32) :
    k0_pay12 v4 v6 v43 v46 v62 = rowMinInto (row512 v62) (k0_pay11 v4 v6 v43 v46) := rfl

theorem pay16_eq (v4 v6 : FVec F S1x256 .f32) (v76 : FVec F S1x512 .f32) (v78 v94 : Vec F S1x1x512 .f32) :
    k0_pay16 v4 v6 v76 v78 v94 = rowMinInto (row512 v94) (k0_pay15 v4 v6 v76 v78) := rfl

theorem pay2_eq (v117 v122 : FVec F S1x512x256 .f32) (v126 : Vec F S1x1x512 .f32) :
    k0_pay2 v117 v122 v126 = rowMinInto (row512 v126) (k0_pay1 v117 v122) := rfl

theorem pay13_eq (v4 v6 v7 : FVec F S1x256 .f32) (v28 : FVec F S1x512x256 .f32) (v43 v46 : Vec F S1x1x512 .f32) :
    k0_pay13 v4 v6 v7 v28 v43 v46 = minimumf (minimumf v7 (colMin v28)) (colMin (k0_pay11 v4 v6 v43 v46)) := rfl

theorem pay17_eq (v4 v6 v71 : FVec F S1x256 .f32) (v76 : FVec F S1x512 .f32) (v78 : Vec F S1x1x512 .f32) :
    k0_pay17 v4 v6 v71 v76 v78 = minimumf v71 (colMin (k0_pay15 v4 v6 v76 v78)) := rfl

theorem pay3_eq (v103 : FVec F S1x256 .f32) (v117 v122 : FVec F S1x512x256 .f32) :
    k0_pay3 v103 v117 v122
      = shapeCast S1x1x256 (minimumf v103 (colMin (k0_pay1 v117 v122))) shapeCasts_S1x256_S1x1x256 := rfl

end Generic

/-! ## Read at an index, over the extended reals -/

/-- A row of 512 turned into a column and spread over 256 columns reads its entry r. -/
theorem spreadCol_apply {α : Type} (p : (⟨2, ![1, 512]⟩ : Shape).Idx → α) (a : Fin 1) (r : Fin 512) (cc : Fin 256) :
    broadcastTo S1x512x256 (shapeCast S1x512x1 p shapeCasts_S1x512_S1x512x1) broadcasts_S1x512x1_S1x512x256 (ix3 a r cc)
      = p (ix2 0 r) :=
  (broadcastTo_apply _ broadcasts_S1x512x1_S1x512x256 (ix3 a r cc) (ix3 (0 : Fin 1) r (0 : Fin 1)) fun ax =>
      match ax with | ⟨0, _⟩ => rfl | ⟨1, _⟩ => rfl | ⟨2, _⟩ => rfl).trans
    (shapeCast_apply p shapeCasts_S1x512_S1x512x1 _ (ix2 (0 : Fin 1) r) (by
      rw [Shape.rowMajor_val_two, Shape.rowMajor_val_three]
      show 0 * 512 + r.val = (0 * 512 + r.val) * 1 + 0
      omega))

/-- A row of 256 spread down 512 rows reads its entry c. -/
theorem spreadRow_apply {α : Type} (q : (⟨2, ![1, 256]⟩ : Shape).Idx → α) (a : Fin 1) (r : Fin 512) (cc : Fin 256) :
    broadcastTo S1x512x256 (shapeCast S1x1x256 q shapeCasts_S1x256_S1x1x256) broadcasts_S1x1x256_S1x512x256 (ix3 a r cc)
      = q (ix2 0 cc) :=
  (broadcastTo_apply _ broadcasts_S1x1x256_S1x512x256 (ix3 a r cc) (ix3 (0 : Fin 1) (0 : Fin 1) cc) fun ax =>
      match ax with | ⟨0, _⟩ => rfl | ⟨1, _⟩ => rfl | ⟨2, _⟩ => rfl).trans
    (shapeCast_ab_1ab_apply q shapeCasts_S1x256_S1x1x256 0 0 cc)

/-- The tile at (r, c) is the squared distance between point r of p and point c of q. -/
theorem dist2_apply (qx qy : FVec Ideal S1x256 .f32) (px py : FVec Ideal S1x512 .f32) (a : Fin 1) (r : Fin 512)
    (cc : Fin 256) :
    dist2 qx qy px py (ix3 a r cc) = sqd (px (ix2 0 r)) (py (ix2 0 r)) (qx (ix2 0 cc)) (qy (ix2 0 cc)) := by
  unfold dist2 sqd
  simp only [addf_apply, mulf_apply, subf_apply]
  rw [spreadCol_apply px a r cc, spreadRow_apply qx a r cc, spreadCol_apply py a r cc, spreadRow_apply qy a r cc]

/-- The minimum along row r of a tile, from +infinity, is the infimum of the row. -/
theorem rowMin_apply (T : FVec Ideal S1x512x256 .f32) (hφ : FKind.Formats .f32)
    (hacc : (0x7F800000#32 : BitVec 32) = 0x7F800000#32) (a : Fin 1) (r : Fin 512) :
    multiReduction (F := Ideal) .minimumf [2] S1x512 T 0x7F800000#32 reduces_S1x512x256_S1x512 hφ hacc (ix2 a r)
      = Finset.univ.inf fun cc : Fin 256 => T (ix3 0 r cc) := by
  refine (multiReduction_minimumf_eq_fold T 0x7F800000#32 reduces_S1x512x256_S1x512 hφ hacc (ix2 a r)).trans ?_
  refine (Shape.Reduces.fold_filter_drop_single reduces_S1x512x256_S1x512 FloatOps.minimumf _ T (ix2 a r)).trans ?_
  show Finset.fold min (Ideal.ofBits .f32 0x7F800000#32) _ _ = _
  rw [ofBits_inf, fold_min_top]
  refine congrArg (Finset.univ.inf) (funext fun cc => congrArg T (funext fun ax => Fin.ext ?_))
  have ha : a.val = 0 := by omega
  match ax with
  | ⟨0, _⟩ => exact ha
  | ⟨1, _⟩ => rfl
  | ⟨2, _⟩ => rfl

/-- The minimum down column c of a tile, from +infinity, is the infimum of the column. -/
theorem colMin_apply (T : FVec Ideal S1x512x256 .f32) (a : Fin 1) (cc : Fin 256) :
    colMin T (ix2 a cc) = Finset.univ.inf fun r : Fin 512 => T (ix3 0 r cc) := by
  unfold colMin
  refine (multiReduction_minimumf_eq_fold T 0x7F800000#32 reduces_S1x512x256_S1x256 _ _ (ix2 a cc)).trans ?_
  refine (Shape.Reduces.fold_filter_drop_single reduces_S1x512x256_S1x256 FloatOps.minimumf _ T (ix2 a cc)).trans ?_
  show Finset.fold min (Ideal.ofBits .f32 0x7F800000#32) _ _ = _
  rw [ofBits_inf, fold_min_top]
  refine congrArg (Finset.univ.inf) (funext fun r => congrArg T (funext fun ax => Fin.ext ?_))
  have ha : a.val = 0 := by omega
  match ax with
  | ⟨0, _⟩ => exact ha
  | ⟨1, _⟩ => rfl
  | ⟨2, _⟩ => rfl

/-- The running row minimum after a tile: the smaller of the running value and the row's infimum. -/
theorem rowMinInto_apply (cur : FVec Ideal S1x512 .f32) (T : FVec Ideal S1x512x256 .f32) (a b : Fin 1) (r : Fin 512) :
    rowMinInto cur T (ix3 a b r) = min (cur (ix2 0 r)) (Finset.univ.inf fun cc : Fin 256 => T (ix3 0 r cc)) := by
  obtain rfl : b = 0 := Fin.ext (by omega)
  unfold rowMinInto
  refine (shapeCast_ab_1ab_apply _ shapeCasts_S1x512_S1x1x512 a 0 r).trans ?_
  refine (minimumf_apply _ _ _).trans ?_
  exact congrArg (min (cur (ix2 0 r))) (rowMin_apply T _ _ 0 r)

end Chamfer

end
-- ==== Proof.Pieces.lean ====
/-
  What one grid step leaves in its two output blocks, as functions of the blocks it reads.

  A step reads a block of p ([1,2,2048]: row 0 the x coordinates of 2048 points, row 1 their y coordinates) and a
  tile of q ([1,2,256], likewise for 256 points). Write D n c for the squared distance between point n of p and
  point c of q. The step goes through p in four chunks of 512 points.

  * Block of running row minima ([1,1,2048]): entry n becomes  min (old entry n) (inf_c D n c); at the first tile
    of a batch row the old entries are first set to +infinity. Each chunk is stored through its own box of 512
    entries, and a chunk's load sees none of the other chunks' stores.
  * Block of column minima ([1,1,256]): entry c becomes  inf_n D n c, folded in chunk by chunk from +infinity.
-/
import proofs.«113054_j11544872092235_2_alg».proof.Proof.Gen.KernelIdeal.Frame
import proofs.«113054_j11544872092235_2_alg».proof.Proof.Tile
import Idealize.ShloMosaic.Lib.Pipeline.CanonAppend
import Idealize.ShloMosaic.Lib.Tactic

set_option maxRecDepth 16384

noncomputable section

namespace Chamfer

open Idealize.ShloMosaic Idealize.ShloMosaic.ValueIdx Idealize.ShloMosaic.TcCoe
open Cert.KernelIdeal Cert.KernelIdeal.Gen Cert.Lib.SqrtInf

/-- D n c: the squared distance between point n of a block of p and point c of a tile of q. -/
def blockD (x0 : Vec Ideal S1x2x2048 .f32) (x1 : Vec Ideal S1x2x256 .f32) (n : Fin 2048) (cc : Fin 256) : EReal :=
  sqd (x0 (ix3 (0 : Fin 1) (0 : Fin 2) n)) (x0 (ix3 (0 : Fin 1) (1 : Fin 2) n))
    (x1 (ix3 (0 : Fin 1) (0 : Fin 2) cc)) (x1 (ix3 (0 : Fin 1) (1 : Fin 2) cc))

/-- The block of running row minima after a step that found `old` in it. -/
def xBlock (x0 : Vec Ideal S1x2x2048 .f32) (x1 : Vec Ideal S1x2x256 .f32) (old : Vec Ideal S1x1x2048 .f32) :
    Vec Ideal S1x1x2048 .f32 :=
  fun y => min (old y) (Finset.univ.inf fun cc : Fin 256 => blockD x0 x1 (y 2) cc)

/-- The block of column minima a step leaves. -/
def yBlock (x0 : Vec Ideal S1x2x2048 .f32) (x1 : Vec Ideal S1x2x256 .f32) : Vec Ideal S1x1x256 .f32 :=
  fun y => Finset.univ.inf fun n : Fin 2048 => blockD x0 x1 n (y 2)

/-! ## Loads through boxes of the whole staging buffers -/

/-- Coordinate row k of p, entries o … o + 511, read as a row of 512. -/
theorem readP (a2 : Memref sig .tc .vmem S1x2x2048 .f32) (h2 : a2.IsWhole) (x0 : Vec Ideal S1x2x2048 .f32)
    (k o : ℕ) (hk : k < 2) (ho : o + 512 ≤ 2048)
    (inb : ∀ a, (![0, k, o] : Fin 3 → ℕ) a + S1x1x512.size a ≤ S1x2x2048.size a) (r : Fin 512) :
    row512 (View.readAt (Elt Ideal) a2.view (Rect.unit (s := S1x2x2048) ![0, k, o] S1x1x512.size inb).toLoadRect
        (h2.unread x0)) (ix2 0 r)
      = x0 (ix3 (0 : Fin 1) (⟨k, hk⟩ : Fin 2) (⟨o + r.val, by have := r.isLt; omega⟩ : Fin 2048)) := by
  simp only [View.readAt_eq_ld, h2.read_unread]
  refine (shapeCast_1ab_ab_apply _ shapeCasts_S1x1x512_S1x512 0 r).trans ?_
  show x0 _ = x0 _
  refine congrArg x0 (funext fun ax => Fin.ext ?_)
  match ax with
  | ⟨0, _⟩ => rfl
  | ⟨1, _⟩ => show k + 1 * 0 = k; omega
  | ⟨2, _⟩ => show o + 1 * r.val = o + r.val; omega

/-- Coordinate row k of q read as a row of 256. -/
theorem readQ (a3 : Memref sig .tc .vmem S1x2x256 .f32) (h3 : a3.IsWhole) (x1 : Vec Ideal S1x2x256 .f32)
    (k : ℕ) (hk : k < 2)
    (inb : ∀ a, (![0, k, 0] : Fin 3 → ℕ) a + S1x1x256.size a ≤ S1x2x256.size a) (cc : Fin 256) :
    row256 (View.readAt (Elt Ideal) a3.view (Rect.unit (s := S1x2x256) ![0, k, 0] S1x1x256.size inb).toLoadRect
        (h3.unread x1)) (ix2 0 cc)
      = x1 (ix3 (0 : Fin 1) (⟨k, hk⟩ : Fin 2) cc) := by
  simp only [View.readAt_eq_ld, h3.read_unread]
  refine (shapeCast_1ab_ab_apply _ shapeCasts_S1x1x256_S1x256 0 cc).trans ?_
  show x1 _ = x1 _
  refine congrArg x1 (funext fun ax => Fin.ext ?_)
  match ax with
  | ⟨0, _⟩ => rfl
  | ⟨1, _⟩ => show k + 1 * 0 = k; omega
  | ⟨2, _⟩ => show 0 + 1 * cc.val = cc.val; omega

/-- Entries o … o + 511 of the block of running minima read as a row of 512. -/
theorem readX (a4 : Memref sig .tc .vmem S1x1x2048 .f32) (h4 : a4.IsWhole) (xo2 : Vec Ideal S1x1x2048 .f32)
    (o : ℕ) (ho : o + 512 ≤ 2048)
    (inb : ∀ a, (![0, 0, o] : Fin 3 → ℕ) a + S1x1x512.size a ≤ S1x1x2048.size a) (r : Fin 512) :
    row512 (View.readAt (Elt Ideal) a4.view (Rect.unit (s := S1x1x2048) ![0, 0, o] S1x1x512.size inb).toLoadRect
        (h4.unread xo2)) (ix2 0 r)
      = xo2 (ix3 (0 : Fin 1) (0 : Fin 1) (⟨o + r.val, by have := r.isLt; omega⟩ : Fin 2048)) := by
  simp only [View.readAt_eq_ld, h4.read_unread]
  refine (shapeCast_1ab_ab_apply _ shapeCasts_S1x1x512_S1x512 0 r).trans ?_
  show xo2 _ = xo2 _
  refine congrArg xo2 (funext fun ax => Fin.ext ?_)
  match ax with
  | ⟨0, _⟩ => rfl
  | ⟨1, _⟩ => rfl
  | ⟨2, _⟩ => show o + 1 * r.val = o + r.val; omega

/-- Position r of the box at offset o of the block of running minima is entry o + r of the block. -/
theorem emb_chunk (o : ℕ) (ho : o + 512 ≤ 2048)
    (inb : ∀ a, (![0, 0, o] : Fin 3 → ℕ) a + S1x1x512.size a ≤ S1x1x2048.size a) (a b : Fin 1) (r : Fin 512) :
    (Rect.unit (s := S1x1x2048) ![0, 0, o] S1x1x512.size inb).emb (ix3 a b r)
      = ix3 (0 : Fin 1) (0 : Fin 1) (⟨o + r.val, by have := r.isLt; omega⟩ : Fin 2048) := by
  refine funext fun ax => Fin.ext ?_
  have ha : a.val = 0 := by omega
  have hb : b.val = 0 := by omega
  match ax with
  | ⟨0, _⟩ => show 0 + 1 * a.val = 0; omega
  | ⟨1, _⟩ => show 0 + 1 * b.val = 0; omega
  | ⟨2, _⟩ => show o + 1 * r.val = o + r.val; omega

/-! ## One chunk -/

/-- The tile of the chunk at offset o, at (r, c), is D (o + r) c. -/
theorem tile_read (a2 : Memref sig .tc .vmem S1x2x2048 .f32) (h2 : a2.IsWhole) (a3 : Memref sig .tc .vmem S1x2x256 .f32)
    (h3 : a3.IsWhole) (x0 : Vec Ideal S1x2x2048 .f32) (x1 : Vec Ideal S1x2x256 .f32) (o : ℕ) (ho : o + 512 ≤ 2048)
    (inbq0 : ∀ a, (![0, 0, 0] : Fin 3 → ℕ) a + S1x1x256.size a ≤ S1x2x256.size a)
    (inbq1 : ∀ a, (![0, 1, 0] : Fin 3 → ℕ) a + S1x1x256.size a ≤ S1x2x256.size a)
    (inbx : ∀ a, (![0, 0, o] : Fin 3 → ℕ) a + S1x1x512.size a ≤ S1x2x2048.size a)
    (inby : ∀ a, (![0, 1, o] : Fin 3 → ℕ) a + S1x1x512.size a ≤ S1x2x2048.size a) (r : Fin 512) (cc : Fin 256) :
    dist2
        (row256 (View.readAt (Elt Ideal) a3.view (Rect.unit (s := S1x2x256) ![0, 0, 0] S1x1x256.size inbq0).toLoadRect (h3.unread x1)))
        (row256 (View.readAt (Elt Ideal) a3.view (Rect.unit (s := S1x2x256) ![0, 1, 0] S1x1x256.size inbq1).toLoadRect (h3.unread x1)))
        (row512 (View.readAt (Elt Ideal) a2.view (Rect.unit (s := S1x2x2048) ![0, 0, o] S1x1x512.size inbx).toLoadRect (h2.unread x0)))
        (row512 (View.readAt (Elt Ideal) a2.view (Rect.unit (s := S1x2x2048) ![0, 1, o] S1x1x512.size inby).toLoadRect (h2.unread x0)))
        (ix3 0 r cc)
      = blockD x0 x1 ⟨o + r.val, by have := r.isLt; omega⟩ cc := by
  refine (dist2_apply _ _ _ _ 0 r cc).trans ?_
  rw [readP a2 h2 x0 0 o (by omega) ho inbx r, readP a2 h2 x0 1 o (by omega) ho inby r,
    readQ a3 h3 x1 0 (by omega) inbq0 cc, readQ a3 h3 x1 1 (by omega) inbq1 cc]
  rfl

/-- The chunk at offset o stores, at position r of its box, the smaller of the running value `cur` there and the
    infimum over the tile's row. -/
theorem chunk_apply (a2 : Memref sig .tc .vmem S1x2x2048 .f32) (h2 : a2.IsWhole) (a3 : Memref sig .tc .vmem S1x2x256 .f32)
    (h3 : a3.IsWhole) (x0 : Vec Ideal S1x2x2048 .f32) (x1 : Vec Ideal S1x2x256 .f32) (o : ℕ) (ho : o + 512 ≤ 2048)
    (inbq0 : ∀ a, (![0, 0, 0] : Fin 3 → ℕ) a + S1x1x256.size a ≤ S1x2x256.size a)
    (inbq1 : ∀ a, (![0, 1, 0] : Fin 3 → ℕ) a + S1x1x256.size a ≤ S1x2x256.size a)
    (inbx : ∀ a, (![0, 0, o] : Fin 3 → ℕ) a + S1x1x512.size a ≤ S1x2x2048.size a)
    (inby : ∀ a, (![0, 1, o] : Fin 3 → ℕ) a + S1x1x512.size a ≤ S1x2x2048.size a)
    (cur : FVec Ideal S1x512 .f32) (a b : Fin 1) (r : Fin 512) :
    rowMinInto cur
        (dist2
          (row256 (View.readAt (Elt Ideal) a3.view (Rect.unit (s := S1x2x256) ![0, 0, 0] S1x1x256.size inbq0).toLoadRect (h3.unread x1)))
          (row256 (View.readAt (Elt Ideal) a3.view (Rect.unit (s := S1x2x256) ![0, 1, 0] S1x1x256.size inbq1).toLoadRect (h3.unread x1)))
          (row512 (View.readAt (Elt Ideal) a2.view (Rect.unit (s := S1x2x2048) ![0, 0, o] S1x1x512.size inbx).toLoadRect (h2.unread x0)))
          (row512 (View.readAt (Elt Ideal) a2.view (Rect.unit (s := S1x2x2048) ![0, 1, o] S1x1x512.size inby).toLoadRect (h2.unread x0))))
        (ix3 a b r)
      = min (cur (ix2 0 r))
          (Finset.univ.inf fun cc : Fin 256 => blockD x0 x1 ⟨o + r.val, by have := r.isLt; omega⟩ cc) := by
  refine (rowMinInto_apply _ _ a b r).trans ?_
  exact congrArg (min (cur (ix2 0 r)))
    (congrArg Finset.univ.inf (funext fun cc => tile_read a2 h2 a3 h3 x0 x1 o ho inbq0 inbq1 inbx inby r cc))

/-! ## Membership in a chunk's box -/

theorem hz3 : (![0, 0, 0] : Fin 3 → Nat) = fun _ => 0 := funext fun a => by fin_cases a <;> rfl

/-- An entry whose last coordinate lies in o … o + 511 is in the box of the chunk at offset o. -/
theorem mem_chunk (o : ℕ) (inb : ∀ a, (![0, 0, o] : Fin 3 → ℕ) a + S1x1x512.size a ≤ S1x1x2048.size a)
    (y : S1x1x2048.Idx) (h : o ≤ (y 2).val ∧ (y 2).val < o + 512) :
    y ∈ (Rect.unit (s := S1x1x2048) ![0, 0, o] S1x1x512.size inb).set := by
  rw [Rect.mem_set_unit]
  intro ax
  have h0 : (y 0).val < 1 := (y 0).isLt
  have h1 : (y 1).val < 1 := (y 1).isLt
  match ax with
  | ⟨0, _⟩ => show 0 ≤ (y 0).val ∧ (y 0).val < 0 + 1; omega
  | ⟨1, _⟩ => show 0 ≤ (y 1).val ∧ (y 1).val < 0 + 1; omega
  | ⟨2, _⟩ => show o ≤ (y 2).val ∧ (y 2).val < o + 512; exact h

/-- Every entry of the box of the chunk at offset o' has its last coordinate below o' + 512. -/
theorem below_chunk (o' o : ℕ) (h : o' + 512 ≤ o)
    (inb : ∀ a, (![0, 0, o'] : Fin 3 → ℕ) a + S1x1x512.size a ≤ S1x1x2048.size a) (y : S1x1x2048.Idx)
    (hy : y ∈ (Rect.unit (s := S1x1x2048) ![0, 0, o'] S1x1x512.size inb).set) : (y 2).val < o := by
  rw [Rect.mem_set_unit] at hy
  have := hy 2
  change o' ≤ (y 2).val ∧ (y 2).val < o' + 512 at this
  omega

/-! ## The block of running minima -/

/-- A tile that is not the first of its batch row: each chunk's box gets the smaller of what was there and the
    infimum over the tile's row. -/
theorem chunkB (a2 : Memref sig .tc .vmem S1x2x2048 .f32) (h2 : a2.IsWhole) (a3 : Memref sig .tc .vmem S1x2x256 .f32)
    (h3 : a3.IsWhole) (a4 : Memref sig .tc .vmem S1x1x2048 .f32) (h4 : a4.IsWhole)
    (x0 : Vec Ideal S1x2x2048 .f32) (x1 : Vec Ideal S1x2x256 .f32) (xo2 : Vec Ideal S1x1x2048 .f32)
    (o : ℕ) (ho : o + 512 ≤ 2048)
    (inbq0 : ∀ a, (![0, 0, 0] : Fin 3 → ℕ) a + S1x1x256.size a ≤ S1x2x256.size a)
    (inbq1 : ∀ a, (![0, 1, 0] : Fin 3 → ℕ) a + S1x1x256.size a ≤ S1x2x256.size a)
    (inbx : ∀ a, (![0, 0, o] : Fin 3 → ℕ) a + S1x1x512.size a ≤ S1x2x2048.size a)
    (inby : ∀ a, (![0, 1, o] : Fin 3 → ℕ) a + S1x1x512.size a ≤ S1x2x2048.size a)
    (inb4 : ∀ a, (![0, 0, o] : Fin 3 → ℕ) a + S1x1x512.size a ≤ S1x1x2048.size a) (a b : Fin 1) (r : Fin 512) :
    rowMinInto
        (row512 (View.readAt (Elt Ideal) a4.view (Rect.unit (s := S1x1x2048) ![0, 0, o] S1x1x512.size inb4).toLoadRect (h4.unread xo2)))
        (dist2
          (row256 (View.readAt (Elt Ideal) a3.view (Rect.unit (s := S1x2x256) ![0, 0, 0] S1x1x256.size inbq0).toLoadRect (h3.unread x1)))
          (row256 (View.readAt (Elt Ideal) a3.view (Rect.unit (s := S1x2x256) ![0, 1, 0] S1x1x256.size inbq1).toLoadRect (h3.unread x1)))
          (row512 (View.readAt (Elt Ideal) a2.view (Rect.unit (s := S1x2x2048) ![0, 0, o] S1x1x512.size inbx).toLoadRect (h2.unread x0)))
          (row512 (View.readAt (Elt Ideal) a2.view (Rect.unit (s := S1x2x2048) ![0, 1, o] S1x1x512.size inby).toLoadRect (h2.unread x0))))
        (ix3 a b r)
      = xBlock x0 x1 xo2 ((Rect.unit (s := S1x1x2048) ![0, 0, o] S1x1x512.size inb4).emb (ix3 a b r)) := by
  rw [emb_chunk o ho inb4 a b r]
  refine (chunk_apply a2 h2 a3 h3 x0 x1 o ho inbq0 inbq1 inbx inby _ a b r).trans ?_
  rw [readX a4 h4 xo2 o ho inb4 r]
  rfl

theorem out_B_2 (c : Dev nD) (i : grid0.Coords) (a2 : Memref sig .tc .vmem S1x2x2048 .f32) (h2 : a2.IsWhole)
    (a3 : Memref sig .tc .vmem S1x2x256 .f32) (h3 : a3.IsWhole) (a4 : Memref sig .tc .vmem S1x1x2048 .f32)
    (h4 : a4.IsWhole) (a5 : Memref sig .tc .vmem S1x1x256 .f32) (h5 : a5.IsWhole) (hc : ¬cond0_0 i)
    (x0 : Vec Ideal S1x2x2048 .f32) (x1 : Vec Ideal S1x2x256 .f32) (xo2 : Vec Ideal S1x1x2048 .f32) :
    out0_B_2 (F := Ideal) c i a2 h2 a3 h3 a4 h4 a5 h5 hc x0 x1 xo2 = xBlock x0 x1 xo2 := by
  unfold out0_B_2
  rw [View.read_writes_eq_canon _ _ _ (cover0_B_2 c i a2 h2 a3 h3 a4 h4 a5 h5 hc x0 x1 xo2)]
  funext y
  refine View.canon_apply_of_pieces (xBlock x0 x1 xo2) _ ?_ y (cover0_B_2 c i a2 h2 a3 h3 a4 h4 a5 h5 hc x0 x1 xo2 y)
  unfold kernelRun0_B
  dsimp only
  sl_unfold_words
  intro p hp
  simp only [List.mem_cons, List.mem_nil_iff, or_false] at hp
  rcases hp with rfl | rfl | rfl | rfl
  · intro x
    obtain ⟨a, b, r, rfl⟩ : ∃ (a b : Fin 1) (r : Fin 512), x = ix3 a b r := ⟨x 0, x 1, x 2, eq_ix3 x⟩
    exact chunkB a2 h2 a3 h3 a4 h4 x0 x1 xo2 1536 (by omega) _ _ _ _ _ a b r
  · intro x
    obtain ⟨a, b, r, rfl⟩ : ∃ (a b : Fin 1) (r : Fin 512), x = ix3 a b r := ⟨x 0, x 1, x 2, eq_ix3 x⟩
    exact chunkB a2 h2 a3 h3 a4 h4 x0 x1 xo2 1024 (by omega) _ _ _ _ _ a b r
  · intro x
    obtain ⟨a, b, r, rfl⟩ : ∃ (a b : Fin 1) (r : Fin 512), x = ix3 a b r := ⟨x 0, x 1, x 2, eq_ix3 x⟩
    exact chunkB a2 h2 a3 h3 a4 h4 x0 x1 xo2 512 (by omega) _ _ _ _ _ a b r
  · intro x
    obtain ⟨a, b, r, rfl⟩ : ∃ (a b : Fin 1) (r : Fin 512), x = ix3 a b r := ⟨x 0, x 1, x 2, eq_ix3 x⟩
    exact chunkB a2 h2 a3 h3 a4 h4 x0 x1 xo2 0 (by omega) _ _ _ _ _ a b r

/-! ### The first tile of a batch row: the block is first filled with +infinity -/

theorem pay4_top (y : S1x1x2048.Idx) : k0_pay4 (F := Ideal) y = ⊤ := ofBits_inf

/-- After a store w of the whole block, stores that all lie below entry o do not change what is read at or above o. -/
theorem canon_above (o : ℕ) (w : Vec Ideal S1x1x2048 .f32)
    (inbW : ∀ a, (![0, 0, 0] : Fin 3 → ℕ) a + S1x1x2048.size a ≤ S1x1x2048.size a) :
    ∀ (L : List (View.Piece (Elt Ideal) S1x1x2048 .f32)), (∀ p ∈ L, ∀ y ∈ p.1.set, (y 2).val < o) →
      ∀ y : S1x1x2048.Idx, o ≤ (y 2).val →
      View.canon (L ++ [(⟨Rect.unit (s := S1x1x2048) ![0, 0, 0] S1x1x2048.size inbW, w⟩ :
        View.Piece (Elt Ideal) S1x1x2048 .f32)]) y = w y
  | [], _, y, _ => congrFun (View.canon_unit_zero hz3 inbW w) y
  | p :: L, hL, y, hy => by
    rw [List.cons_append, View.canon_cons_of_not_mem p _ (fun hm => by
      have := hL p (List.mem_cons.mpr (Or.inl rfl)) y hm; omega)]
    exact canon_above o w inbW L (fun q hq => hL q (List.mem_cons.mpr (Or.inr hq))) y hy

/-- So the chunk at offset o finds +infinity in its box when the earlier chunks' stores lie below o. -/
theorem cur_top (a4 : Memref sig .tc .vmem S1x1x2048 .f32) (o : ℕ) (ho : o + 512 ≤ 2048)
    (L : List (View.Piece (Elt Ideal) S1x1x2048 .f32)) (hL : ∀ p ∈ L, ∀ y ∈ p.1.set, (y 2).val < o)
    (inbW : ∀ a, (![0, 0, 0] : Fin 3 → ℕ) a + S1x1x2048.size a ≤ S1x1x2048.size a)
    (inb : ∀ a, (![0, 0, o] : Fin 3 → ℕ) a + S1x1x512.size a ≤ S1x1x2048.size a) (r : Fin 512) :
    row512 (a4.view.readCov
        (L ++ [(⟨Rect.unit (s := S1x1x2048) ![0, 0, 0] S1x1x2048.size inbW, k0_pay4 (F := Ideal)⟩ : View.Piece (Elt Ideal) S1x1x2048 .f32)])
        (Rect.unit (s := S1x1x2048) ![0, 0, o] S1x1x512.size inb).toLoadRect) (ix2 0 r) = ⊤ := by
  refine (shapeCast_1ab_ab_apply _ shapeCasts_S1x1x512_S1x512 0 r).trans ?_
  rw [View.readCov_eq_canon']
  refine (canon_above o (k0_pay4 (F := Ideal)) inbW L hL _ ?_).trans (pay4_top _)
  show o ≤ o + 1 * r.val
  omega

theorem chunkA (a2 : Memref sig .tc .vmem S1x2x2048 .f32) (h2 : a2.IsWhole) (a3 : Memref sig .tc .vmem S1x2x256 .f32)
    (h3 : a3.IsWhole) (a4 : Memref sig .tc .vmem S1x1x2048 .f32)
    (x0 : Vec Ideal S1x2x2048 .f32) (x1 : Vec Ideal S1x2x256 .f32)
    (o : ℕ) (ho : o + 512 ≤ 2048)
    (inbq0 : ∀ a, (![0, 0, 0] : Fin 3 → ℕ) a + S1x1x256.size a ≤ S1x2x256.size a)
    (inbq1 : ∀ a, (![0, 1, 0] : Fin 3 → ℕ) a + S1x1x256.size a ≤ S1x2x256.size a)
    (inbx : ∀ a, (![0, 0, o] : Fin 3 → ℕ) a + S1x1x512.size a ≤ S1x2x2048.size a)
    (inby : ∀ a, (![0, 1, o] : Fin 3 → ℕ) a + S1x1x512.size a ≤ S1x2x2048.size a)
    (L : List (View.Piece (Elt Ideal) S1x1x2048 .f32)) (hL : ∀ p ∈ L, ∀ y ∈ p.1.set, (y 2).val < o)
    (inbW : ∀ a, (![0, 0, 0] : Fin 3 → ℕ) a + S1x1x2048.size a ≤ S1x1x2048.size a)
    (inb4 : ∀ a, (![0, 0, o] : Fin 3 → ℕ) a + S1x1x512.size a ≤ S1x1x2048.size a) (a b : Fin 1) (r : Fin 512) :
    rowMinInto
        (row512 (a4.view.readCov
          (L ++ [(⟨Rect.unit (s := S1x1x2048) ![0, 0, 0] S1x1x2048.size inbW, k0_pay4 (F := Ideal)⟩ : View.Piece (Elt Ideal) S1x1x2048 .f32)])
          (Rect.unit (s := S1x1x2048) ![0, 0, o] S1x1x512.size inb4).toLoadRect))
        (dist2
          (row256 (View.readAt (Elt Ideal) a3.view (Rect.unit (s := S1x2x256) ![0, 0, 0] S1x1x256.size inbq0).toLoadRect (h3.unread x1)))
          (row256 (View.readAt (Elt Ideal) a3.view (Rect.unit (s := S1x2x256) ![0, 1, 0] S1x1x256.size inbq1).toLoadRect (h3.unread x1)))
          (row512 (View.readAt (Elt Ideal) a2.view (Rect.unit (s := S1x2x2048) ![0, 0, o] S1x1x512.size inbx).toLoadRect (h2.unread x0)))
          (row512 (View.readAt (Elt Ideal) a2.view (Rect.unit (s := S1x2x2048) ![0, 1, o] S1x1x512.size inby).toLoadRect (h2.unread x0))))
        (ix3 a b r)
      = xBlock x0 x1 (fun _ => ⊤) ((Rect.unit (s := S1x1x2048) ![0, 0, o] S1x1x512.size inb4).emb (ix3 a b r)) := by
  rw [emb_chunk o ho inb4 a b r]
  refine (chunk_apply a2 h2 a3 h3 x0 x1 o ho inbq0 inbq1 inbx inby _ a b r).trans ?_
  rw [cur_top a4 o ho L hL inbW inb4 r]
  rfl

theorem out_A_2 (c : Dev nD) (i : grid0.Coords) (a2 : Memref sig .tc .vmem S1x2x2048 .f32) (h2 : a2.IsWhole)
    (a3 : Memref sig .tc .vmem S1x2x256 .f32) (h3 : a3.IsWhole) (a4 : Memref sig .tc .vmem S1x1x2048 .f32)
    (h4 : a4.IsWhole) (a5 : Memref sig .tc .vmem S1x1x256 .f32) (h5 : a5.IsWhole) (hc : cond0_0 i)
    (x0 : Vec Ideal S1x2x2048 .f32) (x1 : Vec Ideal S1x2x256 .f32) :
    out0_A_2 (F := Ideal) c i a2 h2 a3 h3 a4 h4 a5 h5 hc x0 x1 = xBlock x0 x1 (fun _ => ⊤) := by
  unfold out0_A_2
  rw [View.read_writes_eq_canon _ _ _ (cover0_A_2 c i a2 h2 a3 h3 a4 h4 a5 h5 hc x0 x1)]
  funext y
  unfold kernelRun0_A
  dsimp only
  sl_unfold_words
  refine View.canon_append_of_pieces (xBlock x0 x1 fun _ => ⊤) [_] [_, _, _, _] ?_ y ?_
  · intro p hp
    simp only [List.mem_cons, List.mem_nil_iff, or_false] at hp
    rcases hp with rfl | rfl | rfl | rfl
    · intro x
      obtain ⟨a, b, r, rfl⟩ : ∃ (a b : Fin 1) (r : Fin 512), x = ix3 a b r := ⟨x 0, x 1, x 2, eq_ix3 x⟩
      exact chunkA a2 h2 a3 h3 a4 x0 x1 1536 (by omega) _ _ _ _ [_, _, _] (fun p hp => by
        simp only [List.mem_cons, List.mem_nil_iff, or_false] at hp
        rcases hp with rfl | rfl | rfl
        · intro y hy; exact below_chunk 1024 1536 (by omega) (by decide) y hy
        · intro y hy; exact below_chunk 512 1536 (by omega) (by decide) y hy
        · intro y hy; exact below_chunk 0 1536 (by omega) (by decide) y hy) _ _ a b r
    · intro x
      obtain ⟨a, b, r, rfl⟩ : ∃ (a b : Fin 1) (r : Fin 512), x = ix3 a b r := ⟨x 0, x 1, x 2, eq_ix3 x⟩
      exact chunkA a2 h2 a3 h3 a4 x0 x1 1024 (by omega) _ _ _ _ [_, _] (fun p hp => by
        simp only [List.mem_cons, List.mem_nil_iff, or_false] at hp
        rcases hp with rfl | rfl
        · intro y hy; exact below_chunk 512 1024 (by omega) (by decide) y hy
        · intro y hy; exact below_chunk 0 1024 (by omega) (by decide) y hy) _ _ a b r
    · intro x
      obtain ⟨a, b, r, rfl⟩ : ∃ (a b : Fin 1) (r : Fin 512), x = ix3 a b r := ⟨x 0, x 1, x 2, eq_ix3 x⟩
      exact chunkA a2 h2 a3 h3 a4 x0 x1 512 (by omega) _ _ _ _ [_] (fun p hp => by
        simp only [List.mem_cons, List.mem_nil_iff, or_false] at hp
        subst hp
        intro y hy; exact below_chunk 0 512 (by omega) (by decide) y hy) _ _ a b r
    · intro x
      obtain ⟨a, b, r, rfl⟩ : ∃ (a b : Fin 1) (r : Fin 512), x = ix3 a b r := ⟨x 0, x 1, x 2, eq_ix3 x⟩
      exact chunkA a2 h2 a3 h3 a4 x0 x1 0 (by omega) _ _ _ _ [] (fun p hp => absurd hp List.not_mem_nil) _ _ a b r
  · have hn : (y 2).val < 2048 := (y 2).isLt
    by_cases c3 : 1536 ≤ (y 2).val
    · exact ⟨_, List.mem_cons.mpr (Or.inl rfl), mem_chunk 1536 (by decide) y ⟨c3, by omega⟩⟩
    · by_cases c2 : 1024 ≤ (y 2).val
      · exact ⟨_, List.mem_cons.mpr (Or.inr (List.mem_cons.mpr (Or.inl rfl))), mem_chunk 1024 (by decide) y ⟨c2, by omega⟩⟩
      · by_cases c1 : 512 ≤ (y 2).val
        · exact ⟨_, List.mem_cons.mpr (Or.inr (List.mem_cons.mpr (Or.inr (List.mem_cons.mpr (Or.inl rfl))))),
            mem_chunk 512 (by decide) y ⟨c1, by omega⟩⟩
        · exact ⟨_, List.mem_cons.mpr (Or.inr (List.mem_cons.mpr (Or.inr (List.mem_cons.mpr (Or.inr
            (List.mem_cons.mpr (Or.inl rfl))))))), mem_chunk 0 (by decide) y ⟨by omega, by omega⟩⟩

/-! ## The block of column minima -/

/-- The stored block of column minima at entry c: the four column infima folded into the start value. -/
theorem ypay_apply (v7 : FVec Ideal S1x256 .f32) (T0 T1 T2 T3 : FVec Ideal S1x512x256 .f32) (a b : Fin 1)
    (cc : Fin 256) :
    shapeCast S1x1x256
        (minimumf (minimumf (minimumf (minimumf v7 (colMin T0)) (colMin T1)) (colMin T2)) (colMin T3))
        shapeCasts_S1x256_S1x1x256 (ix3 a b cc)
      = min (min (min (min (v7 (ix2 0 cc))
          (Finset.univ.inf fun r : Fin 512 => T0 (ix3 0 r cc)))
          (Finset.univ.inf fun r : Fin 512 => T1 (ix3 0 r cc)))
          (Finset.univ.inf fun r : Fin 512 => T2 (ix3 0 r cc)))
          (Finset.univ.inf fun r : Fin 512 => T3 (ix3 0 r cc)) := by
  obtain rfl : b = 0 := Fin.ext (by omega)
  refine (shapeCast_ab_1ab_apply _ shapeCasts_S1x256_S1x1x256 a 0 cc).trans ?_
  simp only [minimumf_apply, colMin_apply]

theorem ystore (a2 : Memref sig .tc .vmem S1x2x2048 .f32) (h2 : a2.IsWhole) (a3 : Memref sig .tc .vmem S1x2x256 .f32)
    (h3 : a3.IsWhole) (x0 : Vec Ideal S1x2x2048 .f32) (x1 : Vec Ideal S1x2x256 .f32)
    (inbq0 : ∀ a, (![0, 0, 0] : Fin 3 → ℕ) a + S1x1x256.size a ≤ S1x2x256.size a)
    (inbq1 : ∀ a, (![0, 1, 0] : Fin 3 → ℕ) a + S1x1x256.size a ≤ S1x2x256.size a)
    (ix0 : ∀ a, (![0, 0, 0] : Fin 3 → ℕ) a + S1x1x512.size a ≤ S1x2x2048.size a)
    (iy0 : ∀ a, (![0, 1, 0] : Fin 3 → ℕ) a + S1x1x512.size a ≤ S1x2x2048.size a)
    (ix1 : ∀ a, (![0, 0, 512] : Fin 3 → ℕ) a + S1x1x512.size a ≤ S1x2x2048.size a)
    (iy1 : ∀ a, (![0, 1, 512] : Fin 3 → ℕ) a + S1x1x512.size a ≤ S1x2x2048.size a)
    (ix2' : ∀ a, (![0, 0, 1024] : Fin 3 → ℕ) a + S1x1x512.size a ≤ S1x2x2048.size a)
    (iy2 : ∀ a, (![0, 1, 1024] : Fin 3 → ℕ) a + S1x1x512.size a ≤ S1x2x2048.size a)
    (ix3' : ∀ a, (![0, 0, 1536] : Fin 3 → ℕ) a + S1x1x512.size a ≤ S1x2x2048.size a)
    (iy3 : ∀ a, (![0, 1, 1536] : Fin 3 → ℕ) a + S1x1x512.size a ≤ S1x2x2048.size a)
    (a b : Fin 1) (cc : Fin 256) :
    shapeCast S1x1x256
        (minimumf (minimumf (minimumf (minimumf (k0_pay7 (F := Ideal))
          (colMin (dist2
            (row256 (View.readAt (Elt Ideal) a3.view (Rect.unit (s := S1x2x256) ![0, 0, 0] S1x1x256.size inbq0).toLoadRect (h3.unread x1)))
            (row256 (View.readAt (Elt Ideal) a3.view (Rect.unit (s := S1x2x256) ![0, 1, 0] S1x1x256.size inbq1).toLoadRect (h3.unread x1)))
            (row512 (View.readAt (Elt Ideal) a2.view (Rect.unit (s := S1x2x2048) ![0, 0, 0] S1x1x512.size ix0).toLoadRect (h2.unread x0)))
            (row512 (View.readAt (Elt Ideal) a2.view (Rect.unit (s := S1x2x2048) ![0, 1, 0] S1x1x512.size iy0).toLoadRect (h2.unread x0))))))
          (colMin (dist2
            (row256 (View.readAt (Elt Ideal) a3.view (Rect.unit (s := S1x2x256) ![0, 0, 0] S1x1x256.size inbq0).toLoadRect (h3.unread x1)))
            (row256 (View.readAt (Elt Ideal) a3.view (Rect.unit (s := S1x2x256) ![0, 1, 0] S1x1x256.size inbq1).toLoadRect (h3.unread x1)))
            (row512 (View.readAt (Elt Ideal) a2.view (Rect.unit (s := S1x2x2048) ![0, 0, 512] S1x1x512.size ix1).toLoadRect (h2.unread x0)))
            (row512 (View.readAt (Elt Ideal) a2.view (Rect.unit (s := S1x2x2048) ![0, 1, 512] S1x1x512.size iy1).toLoadRect (h2.unread x0))))))
          (colMin (dist2
            (row256 (View.readAt (Elt Ideal) a3.view (Rect.unit (s := S1x2x256) ![0, 0, 0] S1x1x256.size inbq0).toLoadRect (h3.unread x1)))
            (row256 (View.readAt (Elt Ideal) a3.view (Rect.unit (s := S1x2x256) ![0, 1, 0] S1x1x256.size inbq1).toLoadRect (h3.unread x1)))
            (row512 (View.readAt (Elt Ideal) a2.view (Rect.unit (s := S1x2x2048) ![0, 0, 1024] S1x1x512.size ix2').toLoadRect (h2.unread x0)))
            (row512 (View.readAt (Elt Ideal) a2.view (Rect.unit (s := S1x2x2048) ![0, 1, 1024] S1x1x512.size iy2).toLoadRect (h2.unread x0))))))
          (colMin (dist2
            (row256 (View.readAt (Elt Ideal) a3.view (Rect.unit (s := S1x2x256) ![0, 0, 0] S1x1x256.size inbq0).toLoadRect (h3.unread x1)))
            (row256 (View.readAt (Elt Ideal) a3.view (Rect.unit (s := S1x2x256) ![0, 1, 0] S1x1x256.size inbq1).toLoadRect (h3.unread x1)))
            (row512 (View.readAt (Elt Ideal) a2.view (Rect.unit (s := S1x2x2048) ![0, 0, 1536] S1x1x512.size ix3').toLoadRect (h2.unread x0)))
            (row512 (View.readAt (Elt Ideal) a2.view (Rect.unit (s := S1x2x2048) ![0, 1, 1536] S1x1x512.size iy3).toLoadRect (h2.unread x0))))))
        shapeCasts_S1x256_S1x1x256 (ix3 a b cc)
      = yBlock x0 x1 (ix3 a b cc) := by
  refine (ypay_apply _ _ _ _ _ a b cc).trans ?_
  refine Eq.trans ?_ (inf_four_chunks fun n => blockD x0 x1 n cc)
  refine congrArg₂ min (congrArg₂ min (congrArg₂ min (congrArg₂ min ?_ ?_) ?_) ?_) ?_
  · exact ofBits_inf
  · exact congrArg Finset.univ.inf (funext fun r => tile_read a2 h2 a3 h3 x0 x1 0 (by omega) inbq0 inbq1 ix0 iy0 r cc)
  · exact congrArg Finset.univ.inf (funext fun r => tile_read a2 h2 a3 h3 x0 x1 512 (by omega) inbq0 inbq1 ix1 iy1 r cc)
  · exact congrArg Finset.univ.inf (funext fun r => tile_read a2 h2 a3 h3 x0 x1 1024 (by omega) inbq0 inbq1 ix2' iy2 r cc)
  · exact congrArg Finset.univ.inf (funext fun r => tile_read a2 h2 a3 h3 x0 x1 1536 (by omega) inbq0 inbq1 ix3' iy3 r cc)

theorem out_A_3 (c : Dev nD) (i : grid0.Coords) (a2 : Memref sig .tc .vmem S1x2x2048 .f32) (h2 : a2.IsWhole)
    (a3 : Memref sig .tc .vmem S1x2x256 .f32) (h3 : a3.IsWhole) (a4 : Memref sig .tc .vmem S1x1x2048 .f32)
    (h4 : a4.IsWhole) (a5 : Memref sig .tc .vmem S1x1x256 .f32) (h5 : a5.IsWhole) (hc : cond0_0 i)
    (x0 : Vec Ideal S1x2x2048 .f32) (x1 : Vec Ideal S1x2x256 .f32) :
    out0_A_3 (F := Ideal) c i a2 h2 a3 h3 a4 h4 a5 h5 hc x0 x1 = yBlock x0 x1 := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz3]
  funext y
  obtain ⟨a, b, cc, rfl⟩ : ∃ (a b : Fin 1) (cc : Fin 256), y = ix3 a b cc := ⟨y 0, y 1, y 2, eq_ix3 y⟩
  exact ystore a2 h2 a3 h3 x0 x1 _ _ _ _ _ _ _ _ _ _ a b cc

theorem out_B_3 (c : Dev nD) (i : grid0.Coords) (a2 : Memref sig .tc .vmem S1x2x2048 .f32) (h2 : a2.IsWhole)
    (a3 : Memref sig .tc .vmem S1x2x256 .f32) (h3 : a3.IsWhole) (a4 : Memref sig .tc .vmem S1x1x2048 .f32)
    (h4 : a4.IsWhole) (a5 : Memref sig .tc .vmem S1x1x256 .f32) (h5 : a5.IsWhole) (hc : ¬cond0_0 i)
    (x0 : Vec Ideal S1x2x2048 .f32) (x1 : Vec Ideal S1x2x256 .f32) (xo2 : Vec Ideal S1x1x2048 .f32) :
    out0_B_3 (F := Ideal) c i a2 h2 a3 h3 a4 h4 a5 h5 hc x0 x1 xo2 = yBlock x0 x1 := by
  unfold out0_B_3
  rw [View.read_writes_eq_canon _ _ _ (cover0_B_3 c i a2 h2 a3 h3 a4 h4 a5 h5 hc x0 x1 xo2)]
  unfold kernelRun0_B
  dsimp only
  sl_unfold_words
  rw [View.canon_unit_zero hz3]
  funext y
  obtain ⟨a, b, cc, rfl⟩ : ∃ (a b : Fin 1) (cc : Fin 256), y = ix3 a b cc := ⟨y 0, y 1, y 2, eq_ix3 y⟩
  exact ystore a2 h2 a3 h3 x0 x1 _ _ _ _ _ _ _ _ _ _ a b cc

end Chamfer

end
-- ==== Proof.Accum.lean ====
/-
  The two result arrays of the kernel, from what each grid step leaves.

  The grid has 8 batch rows times 8 tiles; step t works on batch row t / 8 and tile t % 8 (256 points of q). Write
  d b n m for the squared distance between point n of p and point m of q in batch row b.

  * The block of running row minima stays in place through the 8 tiles of a batch row: after tile j its entry n is the
    infimum of d b n m over the points m of the tiles 0 … j, that is over m < 256 (j + 1) — by induction on the step,
    the first tile starting from +infinity. It is written back after tile 7, when it holds the infimum over all m.
  * The block of column minima is written back at every step: entry c is the infimum over all n of d b n (256 j + c).
  The written blocks tile the arrays, so the arrays end as  X b n = inf_m d b n m  and  Y b m = inf_n d b n m.
-/
import proofs.«113054_j11544872092235_2_alg».proof.Proof.Pieces
import Idealize.ShloMosaic.Lib.Pipeline.Value

set_option maxRecDepth 16384

noncomputable section

namespace Chamfer

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- d b n m' over coordinate-major arrays [8,2,2048]: row 0 of a batch row holds the x's, row 1 the y's. -/
def dd (P Q : S8x2x2048.Idx → EReal) (b : Fin 8) (n m' : Fin 2048) : EReal :=
  sqd (P (ix3 b (0 : Fin 2) n)) (P (ix3 b (1 : Fin 2) n)) (Q (ix3 b (0 : Fin 2) m')) (Q (ix3 b (1 : Fin 2) m'))

theorem N64 : cfg0.N = 64 := N_0

/-- The batch row of step t. -/
def bOf (t : Fin cfg0.N) : Fin 8 := ⟨t.val / 8, by have := t.isLt; have := N64; omega⟩

/-- Point c of step t's tile, as a point of q. -/
def colOf (t : Fin cfg0.N) (cc : Fin 256) : Fin 2048 :=
  ⟨256 * (t.val % 8) + cc.val, by have := cc.isLt; have : t.val % 8 < 8 := Nat.mod_lt _ (by norm_num); omega⟩

/-- The printed index maps over the grid: p's block and the block of row minima follow the batch row; q's tile and the
    block of column minima follow the batch row and the tile. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = t.val % 8 :=
  (by decide +kernel : ∀ t : Fin grid0.N, _)

/-! ## A step's input blocks are blocks of the region-entry arrays -/

theorem iblk0_apply (c : Dev nD) (t : Fin cfg0.N) (k : Fin 2) (n : Fin 2048) :
    (iblk m c 0 t : Vec Ideal S1x2x2048 .f32) (ix3 (0 : Fin 1) k n)
      = (V m c main_v0 : S8x2x2048.Idx → EReal) (ix3 (bOf t) k n) := by
  obtain ⟨e0, e1, e2, -⟩ := idx_facts t
  show V m c main_v0 (((cfg0.win 0).blk t).view.emb (ix3 (0 : Fin 1) k n)) = _
  refine congrArg (V m c main_v0) (funext fun a => Fin.ext ?_)
  match a with
  | ⟨0, _⟩ => show win0_0.index t (0 : Fin 3) * 1 + 1 * 0 = t.val / 8; omega
  | ⟨1, _⟩ => show win0_0.index t (1 : Fin 3) * 2 + 1 * k.val = k.val; omega
  | ⟨2, _⟩ => show win0_0.index t (2 : Fin 3) * 2048 + 1 * n.val = n.val; omega

theorem iblk1_apply (c : Dev nD) (t : Fin cfg0.N) (k : Fin 2) (cc : Fin 256) :
    (iblk m c 1 t : Vec Ideal S1x2x256 .f32) (ix3 (0 : Fin 1) k cc)
      = (V m c main_v1 : S8x2x2048.Idx → EReal) (ix3 (bOf t) k (colOf t cc)) := by
  obtain ⟨-, -, -, e0, e1, e2, -⟩ := idx_facts t
  show V m c main_v1 (((cfg0.win 1).blk t).view.emb (ix3 (0 : Fin 1) k cc)) = _
  refine congrArg (V m c main_v1) (funext fun a => Fin.ext ?_)
  match a with
  | ⟨0, _⟩ => show win0_1.index t (0 : Fin 3) * 1 + 1 * 0 = t.val / 8; omega
  | ⟨1, _⟩ => show win0_1.index t (1 : Fin 3) * 2 + 1 * k.val = k.val; omega
  | ⟨2, _⟩ => show win0_1.index t (2 : Fin 3) * 256 + 1 * cc.val = 256 * (t.val % 8) + cc.val; omega

/-- D n c of step t's blocks is d (t / 8) n (256 (t % 8) + c). -/
theorem blockD_iblk (c : Dev nD) (t : Fin cfg0.N) (n : Fin 2048) (cc : Fin 256) :
    blockD (iblk m c 0 t) (iblk m c 1 t) n cc = dd (V m c main_v0) (V m c main_v1) (bOf t) n (colOf t cc) := by
  unfold blockD dd
  rw [iblk0_apply m c t 0 n, iblk0_apply m c t 1 n, iblk1_apply m c t 0 cc, iblk1_apply m c t 1 cc]

/-! ## The running row minima -/

/-- Entry n: the infimum of d b n m' over the points m' below k. -/
def xAcc (P Q : S8x2x2048.Idx → EReal) (b : Fin 8) (k : ℕ) : Vec Ideal S1x1x2048 .f32 :=
  fun y => prefixInf (fun m' => dd P Q b (y 2) m') k

/-- Entry c of step t's block of column minima. -/
def yTile (P Q : S8x2x2048.Idx → EReal) (t : Fin cfg0.N) : Vec Ideal S1x1x256 .f32 :=
  fun y => Finset.univ.inf fun n : Fin 2048 => dd P Q (bOf t) n (colOf t (y 2))

/-- One step: from the infima over the points below 256 j to those below 256 (j + 1). -/
theorem stepX (c : Dev nD) (t : Fin cfg0.N) (old : Vec Ideal S1x1x2048 .f32)
    (hold : old = xAcc (V m c main_v0) (V m c main_v1) (bOf t) (256 * (t.val % 8))) :
    xBlock (iblk m c 0 t) (iblk m c 1 t) old
      = xAcc (V m c main_v0) (V m c main_v1) (bOf t) (256 * (t.val % 8) + 256) := by
  subst hold
  funext y
  have h8 : t.val % 8 < 8 := Nat.mod_lt _ (by norm_num)
  show min (prefixInf (fun m' => dd (V m c main_v0) (V m c main_v1) (bOf t) (y 2) m') (256 * (t.val % 8)))
      (Finset.univ.inf fun cc : Fin 256 => blockD (iblk m c 0 t) (iblk m c 1 t) (y 2) cc)
    = prefixInf (fun m' => dd (V m c main_v0) (V m c main_v1) (bOf t) (y 2) m') (256 * (t.val % 8) + 256)
  rw [← prefixInf_step (fun m' => dd (V m c main_v0) (V m c main_v1) (bOf t) (y 2) m') (256 * (t.val % 8)) (by omega)]
  refine congrArg (min _) (congrArg Finset.univ.inf (funext fun cc => ?_))
  exact blockD_iblk m c t (y 2) cc

theorem yBlock_iblk (c : Dev nD) (t : Fin cfg0.N) :
    yBlock (iblk m c 0 t) (iblk m c 1 t) = yTile (V m c main_v0) (V m c main_v1) t :=
  funext fun y => congrArg Finset.univ.inf (funext fun n => blockD_iblk m c t n (y 2))

/-- A first tile (t % 8 = 0): the block starts from +infinity, the infimum over no point. -/
theorem inv_A (c : Dev nD) (t : Fin cfg0.N) (h0 : t.val % 8 = 0) :
    (outsAt0 m c t.val t.isLt).1 = xAcc (V m c main_v0) (V m c main_v1) (bOf t) (256 * (t.val % 8) + 256) := by
  rw [outsAt0_A m c t h0]
  dsimp only
  rw [out_A_2]
  refine stepX m c t (fun _ => ⊤) (funext fun y => ?_)
  show ⊤ = prefixInf _ (256 * (t.val % 8))
  rw [h0, Nat.mul_zero, prefixInf_zero]

/-- A later tile: the block holds what the step before left. -/
theorem inv_B (c : Dev nD) (t : Fin cfg0.N) (h0 : ¬t.val % 8 = 0)
    (ih : (outsAt0 m c (t.val - 1) (Nat.lt_of_le_of_lt (Nat.sub_le _ _) t.isLt)).1
      = xAcc (V m c main_v0) (V m c main_v1) (bOf t) (256 * (t.val % 8))) :
    (outsAt0 m c t.val t.isLt).1 = xAcc (V m c main_v0) (V m c main_v1) (bOf t) (256 * (t.val % 8) + 256) := by
  rw [outsAt0_B m c t h0]
  dsimp only
  rw [out_B_2]
  exact stepX m c t _ ih

/-- After step n the block of running row minima holds the infima over the points of the tiles 0 … n % 8. -/
theorem inv_x (c : Dev nD) : ∀ (n : ℕ) (h : n < cfg0.N),
    (outsAt0 m c n h).1 = xAcc (V m c main_v0) (V m c main_v1) (bOf ⟨n, h⟩) (256 * (n % 8) + 256)
  | 0, h => inv_A m c ⟨0, h⟩ rfl
  | n + 1, h => by
    by_cases h0 : (n + 1) % 8 = 0
    · exact inv_A m c ⟨n + 1, h⟩ h0
    · refine inv_B m c ⟨n + 1, h⟩ h0 ?_
      have ih := inv_x c n (Nat.lt_of_succ_lt h)
      show (outsAt0 m c n _).1 = _
      rw [ih]
      have hb : bOf ⟨n, Nat.lt_of_succ_lt h⟩ = bOf ⟨n + 1, h⟩ := Fin.ext (by show n / 8 = (n + 1) / 8; omega)
      have hk : 256 * (n % 8) + 256 = 256 * ((n + 1) % 8) := by omega
      rw [hb, hk]

/-- Every step leaves its tile's column infima. -/
theorem inv_y (c : Dev nD) (t : Fin cfg0.N) :
    (outsAt0 m c t.val t.isLt).2 = yTile (V m c main_v0) (V m c main_v1) t := by
  by_cases h0 : t.val % 8 = 0
  · rw [outsAt0_A m c t h0]
    dsimp only
    rw [out_A_3]
    exact yBlock_iblk m c t
  · rw [outsAt0_B m c t h0]
    dsimp only
    rw [out_B_3]
    exact yBlock_iblk m c t

/-! ## The result arrays -/

/-- X b n = inf_m d b n m, as the [8,1,2048] array the kernel writes. -/
def xFin (P Q : S8x2x2048.Idx → EReal) : S8x1x2048.Idx → EReal :=
  fun i => Finset.univ.inf fun m' : Fin 2048 => dd P Q (i 0) (i 2) m'

/-- Y b m = inf_n d b n m. -/
def yFin (P Q : S8x2x2048.Idx → EReal) : S8x1x2048.Idx → EReal :=
  fun i => Finset.univ.inf fun n : Fin 2048 => dd P Q (i 0) n (i 2)

theorem flushed2_eq (c : Dev nD) (t : Fin cfg0.N) (hf : (cfg0.win 2).flush t = true) :
    (dats m 0 c).flushed 2 t
      = ((cfg0.win 2).blk t).view.read (Elt Ideal) (xFin (V m c main_v0) (V m c main_v1)) := by
  have h7 : t.val % 8 = 7 := (flush0_2 t).mp hf
  obtain ⟨-, -, -, -, -, -, e0, e1, e2, -⟩ := idx_facts t
  show (cfg0.win 2).cut (grid0.coords t) ((dats m 0 c).after 2 t) = _
  rw [after0_2, inv_x m c t.val t.isLt]
  funext j
  obtain ⟨a, b, n, rfl⟩ : ∃ (a b : Fin 1) (n : Fin 2048), j = ix3 a b n := ⟨j 0, j 1, j 2, eq_ix3 j⟩
  show prefixInf (fun m' => dd (V m c main_v0) (V m c main_v1) (bOf t) n m') (256 * (t.val % 8) + 256)
    = xFin (V m c main_v0) (V m c main_v1) (((cfg0.win 2).blk t).view.emb (ix3 a b n))
  have he : ((cfg0.win 2).blk t).view.emb (ix3 a b n) = ix3 (bOf t) (0 : Fin 1) n := funext fun ax => Fin.ext (by
    have ha : a.val = 0 := by omega
    have hb : b.val = 0 := by omega
    match ax with
    | ⟨0, _⟩ => show win0_2.index t (0 : Fin 3) * 1 + 1 * a.val = t.val / 8; omega
    | ⟨1, _⟩ => show win0_2.index t (1 : Fin 3) * 1 + 1 * b.val = 0; omega
    | ⟨2, _⟩ => show win0_2.index t (2 : Fin 3) * 2048 + 1 * n.val = n.val; omega)
  rw [he, h7]
  exact prefixInf_all _

theorem flushed3_eq (c : Dev nD) (t : Fin cfg0.N) (hf : (cfg0.win 3).flush t = true) :
    (dats m 0 c).flushed 3 t
      = ((cfg0.win 3).blk t).view.read (Elt Ideal) (yFin (V m c main_v0) (V m c main_v1)) := by
  obtain ⟨-, -, -, -, -, -, -, -, -, e0, e1, e2⟩ := idx_facts t
  show (cfg0.win 3).cut (grid0.coords t) ((dats m 0 c).after 3 t) = _
  rw [after0_3, inv_y m c t]
  funext j
  obtain ⟨a, b, cc, rfl⟩ : ∃ (a b : Fin 1) (cc : Fin 256), j = ix3 a b cc := ⟨j 0, j 1, j 2, eq_ix3 j⟩
  show (Finset.univ.inf fun n : Fin 2048 => dd (V m c main_v0) (V m c main_v1) (bOf t) n (colOf t cc))
    = yFin (V m c main_v0) (V m c main_v1) (((cfg0.win 3).blk t).view.emb (ix3 a b cc))
  have he : ((cfg0.win 3).blk t).view.emb (ix3 a b cc) = ix3 (bOf t) (0 : Fin 1) (colOf t cc) := funext fun ax => Fin.ext (by
    have ha : a.val = 0 := by omega
    have hb : b.val = 0 := by omega
    match ax with
    | ⟨0, _⟩ => show win0_3.index t (0 : Fin 3) * 1 + 1 * a.val = t.val / 8; omega
    | ⟨1, _⟩ => show win0_3.index t (1 : Fin 3) * 1 + 1 * b.val = 0; omega
    | ⟨2, _⟩ => show win0_3.index t (2 : Fin 3) * 256 + 1 * cc.val = 256 * (t.val % 8) + cc.val; omega)
  rw [he]
  rfl

theorem mem_blk2 (t : Fin cfg0.N) (i : S8x1x2048.Idx) :
    i ∈ ((cfg0.win 2).blk t).view.set ↔ ∀ a : Fin 3, win0_2.index t a * S1x1x2048.size a ≤ (i a).val
      ∧ (i a).val < win0_2.index t a * S1x1x2048.size a + S1x1x2048.size a := by
  show i ∈ ((View.whole main_v2_0).slice (win0_2.rect t)).set ↔ _
  rw [View.set_slice_whole, Rect.mem_set_unit]
  exact Iff.rfl

theorem mem_blk3 (t : Fin cfg0.N) (i : S8x1x2048.Idx) :
    i ∈ ((cfg0.win 3).blk t).view.set ↔ ∀ a : Fin 3, win0_3.index t a * S1x1x256.size a ≤ (i a).val
      ∧ (i a).val < win0_3.index t a * S1x1x256.size a + S1x1x256.size a := by
  show i ∈ ((View.whole main_v2_1).slice (win0_3.rect t)).set ↔ _
  rw [View.set_slice_whole, Rect.mem_set_unit]
  exact Iff.rfl

/-- The array of row minima after the run. -/
theorem final2 (c : Dev nD) : (dats m 0 c).arrAt 2 cfg0.N = xFin (V m c main_v0) (V m c main_v1) :=
  (dats m 0 c).arrAt_eq_of_cover 2 (xFin (V m c main_v0) (V m c main_v1)) (flushed2_eq m c) fun i => by
    have hi0 : (i 0).val < 8 := (i 0).isLt
    have hi1 : (i 1).val < 1 := (i 1).isLt
    have hi2 : (i 2).val < 2048 := (i 2).isLt
    have ht : 8 * (i 0).val + 7 < cfg0.N := by rw [N64]; omega
    obtain ⟨-, -, -, -, -, -, e0, e1, e2, -⟩ := idx_facts ⟨8 * (i 0).val + 7, ht⟩
    refine ⟨⟨8 * (i 0).val + 7, ht⟩, (flush0_2 _).mpr (by show (8 * (i 0).val + 7) % 8 = 7; omega), ?_⟩
    rw [mem_blk2]
    intro a
    have hv : (⟨8 * (i 0).val + 7, ht⟩ : Fin cfg0.N).val = 8 * (i 0).val + 7 := rfl
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 1 ≤ (i 1).val ∧ (i 1).val < win0_2.index _ (1 : Fin 3) * 1 + 1; omega
    | ⟨2, _⟩ => show win0_2.index _ (2 : Fin 3) * 2048 ≤ (i 2).val ∧ (i 2).val < win0_2.index _ (2 : Fin 3) * 2048 + 2048; omega

/-- The array of column minima after the run. -/
theorem final3 (c : Dev nD) : (dats m 0 c).arrAt 3 cfg0.N = yFin (V m c main_v0) (V m c main_v1) :=
  (dats m 0 c).arrAt_eq_of_cover 3 (yFin (V m c main_v0) (V m c main_v1)) (flushed3_eq m c) fun i => by
    have hi0 : (i 0).val < 8 := (i 0).isLt
    have hi1 : (i 1).val < 1 := (i 1).isLt
    have hi2 : (i 2).val < 2048 := (i 2).isLt
    have ht : 8 * (i 0).val + (i 2).val / 256 < cfg0.N := by rw [N64]; omega
    obtain ⟨-, -, -, -, -, -, -, -, -, e0, e1, e2⟩ := idx_facts ⟨8 * (i 0).val + (i 2).val / 256, ht⟩
    refine ⟨⟨8 * (i 0).val + (i 2).val / 256, ht⟩, flush0_3 _, ?_⟩
    rw [mem_blk3]
    intro a
    have hv : (⟨8 * (i 0).val + (i 2).val / 256, ht⟩ : Fin cfg0.N).val = 8 * (i 0).val + (i 2).val / 256 := rfl
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 1 ≤ (i 1).val ∧ (i 1).val < win0_3.index _ (1 : Fin 3) * 1 + 1; omega
    | ⟨2, _⟩ => show win0_3.index _ (2 : Fin 3) * 256 ≤ (i 2).val ∧ (i 2).val < win0_3.index _ (2 : Fin 3) * 256 + 256; omega

end Chamfer

end
-- ==== Proof.KernelRun.lean ====
/-
  The kernel program's run, read: its scalar result as a function of the two argument arrays.

  Before the region the two arguments are transposed to coordinate-major arrays [8,2,2048]; in those,
  d b n m is the squared distance of the reference's point-major arrays. After the region the program takes the square
  roots of the two arrays of infima — the root of an infimum is the infimum of the roots — and then the two row means,
  half their sum and the mean over the batch, kept as one function `kTail` of the two arrays of distances.
-/
import proofs.«113054_j11544872092235_2_alg».proof.Proof.Accum
import Idealize.ShloMosaic.Lib.StableHlo.Run
import Idealize.ShloMosaic.Lib.ValueLayout

set_option maxRecDepth 16384

noncomputable section

namespace Chamfer

open Idealize.ShloMosaic Idealize.ShloMosaic.ValueIdx Idealize.ShloMosaic.TcCoe Idealize.SL.Sem
open Idealize.ShloMosaic.Pipeline (Dat)
open Cert.KernelIdeal Cert.KernelIdeal.Gen Cert.Lib.SqrtInf

variable (m : (ℓ : Loc nD τ sig) → Buf (Elt Ideal) ℓ) (ρ : Dev nD → PrngReg)

/-! ## The arrays the region finds -/

theorem V_v0 (c : Dev nD) : (V m c main_v0 : S8x2x2048.Idx → EReal)
    = transpose S8x2x2048 [0, 2, 1] (m ((c : Thread nD τ).loc main_arg0)) transposes_S8x2048x2_S8x2x2048_0_2_1 := by
  show StableHlo.after hostOps0 (fun b => m (c, b)) (Proc.devRef .tc main_v0) = _
  after_results

theorem V_v1 (c : Dev nD) : (V m c main_v1 : S8x2x2048.Idx → EReal)
    = transpose S8x2x2048 [0, 2, 1] (m ((c : Thread nD τ).loc main_arg1)) transposes_S8x2048x2_S8x2x2048_0_2_1 := by
  show StableHlo.after hostOps0 (fun b => m (c, b)) (Proc.devRef .tc main_v1) = _
  after_results

/-- d over the transposed arrays is d over the arguments. -/
theorem dd_transpose (a0 a1 : S8x2048x2.Idx → EReal) (b : Fin 8) (n m' : Fin 2048) :
    dd (transpose S8x2x2048 [0, 2, 1] a0 transposes_S8x2048x2_S8x2x2048_0_2_1)
        (transpose S8x2x2048 [0, 2, 1] a1 transposes_S8x2048x2_S8x2x2048_0_2_1) b n m'
      = dpt a0 a1 b n m' := by
  unfold dd dpt
  rw [transpose_ix3_021_apply a0 transposes_S8x2048x2_S8x2x2048_0_2_1 b 0 n,
    transpose_ix3_021_apply a0 transposes_S8x2048x2_S8x2x2048_0_2_1 b 1 n,
    transpose_ix3_021_apply a1 transposes_S8x2048x2_S8x2x2048_0_2_1 b 0 m',
    transpose_ix3_021_apply a1 transposes_S8x2048x2_S8x2x2048_0_2_1 b 1 m']

/-! ## The square roots of the two arrays of infima -/

theorem reshape_apply (X : S8x1x2048.Idx → EReal) (b : Fin 8) (n : Fin 2048) :
    shapeCast S8x2048 X shapeCasts_S8x1x2048_S8x2048 (ix2 b n) = X (ix3 b (0 : Fin 1) n) :=
  shapeCast_apply X shapeCasts_S8x1x2048_S8x2048 (ix2 b n) (ix3 b (0 : Fin 1) n) (by
    rw [Shape.rowMajor_val_three, Shape.rowMajor_val_two]
    show (b.val * 1 + 0) * 2048 + n.val = b.val * 2048 + n.val
    omega)

theorem kx_eq (a0 a1 : S8x2048x2.Idx → EReal) :
    Host.sqrt (F := Ideal) (φ := .f32) (shapeCast S8x2048
        (xFin (transpose S8x2x2048 [0, 2, 1] a0 transposes_S8x2048x2_S8x2x2048_0_2_1)
          (transpose S8x2x2048 [0, 2, 1] a1 transposes_S8x2048x2_S8x2x2048_0_2_1) : FVec Ideal S8x1x2048 .f32)
        shapeCasts_S8x1x2048_S8x2048)
      = XR a0 a1 := by
  funext i
  obtain ⟨b, n, rfl⟩ : ∃ (b : Fin 8) (n : Fin 2048), i = ix2 b n := ⟨i 0, i 1, eq_ix2 i⟩
  show Ideal.sqrt (shapeCast S8x2048 (xFin _ _) shapeCasts_S8x1x2048_S8x2048 (ix2 b n)) = _
  rw [reshape_apply]
  show Ideal.sqrt (Finset.univ.inf fun m' : Fin 2048 => dd _ _ b n m')
    = Finset.univ.inf fun m' : Fin 2048 => Ideal.sqrt (dpt a0 a1 b n m')
  rw [sqrt_inf]
  exact congrArg Finset.univ.inf (funext fun m' => congrArg Ideal.sqrt (dd_transpose a0 a1 b n m'))

theorem ky_eq (a0 a1 : S8x2048x2.Idx → EReal) :
    Host.sqrt (F := Ideal) (φ := .f32) (shapeCast S8x2048
        (yFin (transpose S8x2x2048 [0, 2, 1] a0 transposes_S8x2048x2_S8x2x2048_0_2_1)
          (transpose S8x2x2048 [0, 2, 1] a1 transposes_S8x2048x2_S8x2x2048_0_2_1) : FVec Ideal S8x1x2048 .f32)
        shapeCasts_S8x1x2048_S8x2048)
      = YR a0 a1 := by
  funext i
  obtain ⟨b, m', rfl⟩ : ∃ (b : Fin 8) (m' : Fin 2048), i = ix2 b m' := ⟨i 0, i 1, eq_ix2 i⟩
  show Ideal.sqrt (shapeCast S8x2048 (yFin _ _) shapeCasts_S8x1x2048_S8x2048 (ix2 b m')) = _
  rw [reshape_apply]
  show Ideal.sqrt (Finset.univ.inf fun n : Fin 2048 => dd _ _ b n m')
    = Finset.univ.inf fun n : Fin 2048 => Ideal.sqrt (dpt a0 a1 b n m')
  rw [sqrt_inf]
  exact congrArg Finset.univ.inf (funext fun n => congrArg Ideal.sqrt (dd_transpose a0 a1 b n m'))

/-! ## The operations after the region -/

/-- The two row means, half their sum, the mean over the batch. -/
def kTail (A B : FVec Ideal S8x2048 .f32) : FVec Ideal S_ .f32 :=
  Host.divf
    (Host.reduceAdd
      (mulf
        (addf
          (Host.divf (Host.reduceAdd A (constant (F := Ideal) S_ .f32 0x00000000#32) reducesTo_S8x2048_S8_d1 h_S_)
            (broadcastInDim S8 ![] bcast_S_S8 (constant (F := Ideal) S_ .f32 0x45000000#32)))
          (Host.divf (Host.reduceAdd B (constant (F := Ideal) S_ .f32 0x00000000#32) reducesTo_S8x2048_S8_d1 h_S_)
            (broadcastInDim S8 ![] bcast_S_S8 (constant (F := Ideal) S_ .f32 0x45000000#32))))
        (broadcastInDim S8 ![] bcast_S_S8 (constant (F := Ideal) S_ .f32 0x3F000000#32)))
      (constant (F := Ideal) S_ .f32 0x00000000#32) reducesTo_S8_S_d0 h_S_)
    (constant (F := Ideal) S_ .f32 0x41000000#32)

/-- The result buffer after the run. -/
theorem result_eq (c : Dev nD) :
    Pipeline.afterTail₀ cfgs (dats m) 0 (V0 m) [hostOps1] c main_v17
      = kTail (XR (m ((c : Thread nD τ).loc main_arg0)) (m ((c : Thread nD τ).loc main_arg1)))
          (YR (m ((c : Thread nD τ).loc main_arg0)) (m ((c : Thread nD τ).loc main_arg1))) := by
  have e2 : Pipeline.withArrays (cfgs 0).spec c (V0 m c) (fun w => (dats m 0 c).arrAt w (cfgs 0).N)
      (Proc.devRef .tc main_v2_0) = xFin (V m c main_v0) (V m c main_v1) :=
    (Pipeline.withArrays_arr spec0 launch0.win.arr_inj c (V0 m c) _ 2).trans (final2 m c)
  have e3 : Pipeline.withArrays (cfgs 0).spec c (V0 m c) (fun w => (dats m 0 c).arrAt w (cfgs 0).N)
      (Proc.devRef .tc main_v2_1) = yFin (V m c main_v0) (V m c main_v1) :=
    (Pipeline.withArrays_arr spec0 launch0.win.arr_inj c (V0 m c) _ 3).trans (final3 m c)
  unfold Pipeline.afterTail₀
  show StableHlo.after hostOps1 _ (Proc.devRef .tc main_v17) = _
  after_results
  rw [e2, e3, V_v0, V_v1]
  rw [← kx_eq, ← ky_eq]
  rfl

/-- Every weakly fair execution of the kernel program terminates with its result at `kTail` of the two arrays of
    distances to the nearest point, and the arguments unchanged. -/
theorem run : θ_run defs (onTc (τ := τ) (main (F := Ideal))) ⟨m, fun _ => 0, ρ⟩ fun r => ∀ c : Dev nD,
      r.2.mem ((c.tc : Thread nD τ).loc main_v17)
        = kTail (XR (m ((c : Thread nD τ).loc main_arg0)) (m ((c : Thread nD τ).loc main_arg1)))
            (YR (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Chamfer

end
-- ==== Proof.RefRead.lean ====
/-
  The reference, read at an index.

  The reference forms all 8 x 2048 x 2048 squared distances as a sum over the two coordinates of the squared
  differences (from 0), takes their square roots, and reduces with `min` from +infinity over the points of q
  (result XR) and over the points of p (result YR). The rest of the program — two row means, their half-sum, the mean
  over the batch — is kept as one function `rTail` of those two arrays.
-/
import proofs.«113054_j11544872092235_2_alg».proof.Proof.Gen.ReferenceIdeal.Read
import proofs.«113054_j11544872092235_2_alg».proof.Proof.SqrtMin
import Idealize.ShloMosaic.Lib.ValueIdx
import Idealize.ShloMosaic.PureOps.Ideal.Laws

noncomputable section

namespace Chamfer.Ref

open Idealize.ShloMosaic Idealize.ShloMosaic.ValueIdx
open Cert.ReferenceIdeal Cert.ReferenceIdeal.Gen Cert.ReferenceIdeal.Read Cert.Lib.SqrtInf

/-- The sum over the two coordinates of the squared differences is d b n m. -/
theorem v6_apply (x0 x1 : (⟨S8x2048x2, .f32⟩ : BufTy).Contents (Elt Ideal)) (b : Fin 8) (n m' : Fin 2048) :
    val_main_v6 (F := Ideal) x0 x1 (ix3 b n m') = dpt x0 x1 b n m' := by
  have e0 : ∀ k : Fin 2, idx_main_v0 (idx_main_v2 (idx_main_v6 (ix3 b n m') k)) = ix3 b n k := fun k =>
    funext fun a => Fin.ext (by match a with | ⟨0, _⟩ => rfl | ⟨1, _⟩ => rfl | ⟨2, _⟩ => rfl)
  have e1 : ∀ k : Fin 2, idx_main_v1 (idx_main_v3 (idx_main_v6 (ix3 b n m') k)) = ix3 b m' k := fun k =>
    funext fun a => Fin.ext (by match a with | ⟨0, _⟩ => rfl | ⟨1, _⟩ => rfl | ⟨2, _⟩ => rfl)
  rw [val_main_v6_apply, Fin.sum_univ_two]
  simp only [val_main_v5_apply, val_main_v4_apply, val_main_v2_apply, val_main_v3_apply, val_main_v0_apply,
    val_main_v1_apply, val_main_cst_apply, e0, e1, Ideal.ofBits_def, Ideal.ofBits_zero_f32, zero_add,
    Ideal.mulf_def, Ideal.subf_def]
  rfl

/-- The reference's array of square roots at (b, n, m). -/
theorem v7_apply (x0 x1 : (⟨S8x2048x2, .f32⟩ : BufTy).Contents (Elt Ideal)) (b : Fin 8) (n m' : Fin 2048) :
    val_main_v7 (F := Ideal) x0 x1 (ix3 b n m') = Ideal.sqrt (dpt x0 x1 b n m') := by
  rw [val_main_v7_apply, v6_apply]
  rfl

/-- The minimum over the points of q. -/
theorem v8_eq (x0 x1 : (⟨S8x2048x2, .f32⟩ : BufTy).Contents (Elt Ideal)) :
    val_main_v8 (F := Ideal) x0 x1 = XR x0 x1 := by
  funext i
  obtain ⟨b, n, rfl⟩ : ∃ (b : Fin 8) (n : Fin 2048), i = ix2 b n := ⟨i 0, i 1, eq_ix2 i⟩
  unfold val_main_v8
  refine (Host.reduce_eq_fold_single FloatOps.minimumf _ _ reducesTo_S8x2048x2048_S8x2048_d2 (by decide) h_S_
    (ix2 b n)).trans ?_
  show Finset.fold min (Ideal.ofBits .f32 0x7F800000#32) _ _ = _
  rw [ofBits_inf, fold_min_top]
  refine congrArg Finset.univ.inf (funext fun m' => ?_)
  refine Eq.trans ?_ (v7_apply x0 x1 b n m')
  refine congrArg (val_main_v7 (F := Ideal) x0 x1) (funext fun a => Fin.ext ?_)
  match a with
  | ⟨0, _⟩ => rfl
  | ⟨1, _⟩ => rfl
  | ⟨2, _⟩ => rfl

/-- The minimum over the points of p. -/
theorem v9_eq (x0 x1 : (⟨S8x2048x2, .f32⟩ : BufTy).Contents (Elt Ideal)) :
    val_main_v9 (F := Ideal) x0 x1 = YR x0 x1 := by
  funext i
  obtain ⟨b, m', rfl⟩ : ∃ (b : Fin 8) (m' : Fin 2048), i = ix2 b m' := ⟨i 0, i 1, eq_ix2 i⟩
  unfold val_main_v9
  refine (Host.reduce_eq_fold_single FloatOps.minimumf _ _ reducesTo_S8x2048x2048_S8x2048_d1 (by decide) h_S_
    (ix2 b m')).trans ?_
  show Finset.fold min (Ideal.ofBits .f32 0x7F800000#32) _ _ = _
  rw [ofBits_inf, fold_min_top]
  refine congrArg Finset.univ.inf (funext fun n => ?_)
  refine Eq.trans ?_ (v7_apply x0 x1 b n m')
  refine congrArg (val_main_v7 (F := Ideal) x0 x1) (funext fun a => Fin.ext ?_)
  match a with
  | ⟨0, _⟩ => rfl
  | ⟨1, _⟩ => rfl
  | ⟨2, _⟩ => rfl

/-- The rest of the reference: the two row means, half their sum, the mean over the batch. -/
def rTail (A B : FVec Ideal S8x2048 .f32) : FVec Ideal S_ .f32 :=
  Host.divf (F := Ideal) (φ := .f32)
    (Host.reduceAdd (F := Ideal) (φ := .f32)
      (Host.divf (F := Ideal) (φ := .f32)
        (addf
          (Host.divf (F := Ideal) (φ := .f32) (Host.reduceAdd (F := Ideal) (φ := .f32) A (val_main_cst_2 (F := Ideal)) reducesTo_S8x2048_S8_d1 h_S_) (val_main_v11 (F := Ideal)))
          (Host.divf (F := Ideal) (φ := .f32) (Host.reduceAdd (F := Ideal) (φ := .f32) B (val_main_cst_4 (F := Ideal)) reducesTo_S8x2048_S8_d1 h_S_) (val_main_v14 (F := Ideal))))
        (val_main_v17 (F := Ideal)))
      (val_main_cst_7 (F := Ideal)) reducesTo_S8_S_d0 h_S_)
    (val_main_cst_8 (F := Ideal))

theorem v20_eq (x0 x1 : (⟨S8x2048x2, .f32⟩ : BufTy).Contents (Elt Ideal)) :
    val_main_v20 (F := Ideal) x0 x1 = rTail (XR x0 x1) (YR x0 x1) := by
  rw [← v8_eq, ← v9_eq]
  rfl

end Chamfer.Ref

end
-- ==== Proof.lean ====
/-
  Chamfer distance between two batches of 2048 plane points: the tiled kernel against the direct computation.

  For arrays p, q of shape [8,2048,2] let d b n m be the squared distance between point n of p and point m of q in
  batch row b. Both programs compute

      mean_b ( ( mean_n XR b n + mean_m YR b m ) / 2 ),   XR b n = inf_m sqrt (d b n m),   YR b m = inf_n sqrt (d b n m)

  over the extended reals.
  * The reference forms every sqrt (d b n m) and reduces with min from +infinity along each axis.
  * The kernel never forms the [8,2048,2048] array: for each batch row and each tile of 256 points of q it folds the
    tile's row infima of d into a running minimum per point of p (kept in place through the eight tiles, started from
    +infinity) and writes the tile's column infima; the square roots are taken afterwards. A fold of min from
    +infinity is an infimum, infima over the tiles and chunks combine to the infimum over all points, and since the
    square root is monotone the root of an infimum is the infimum of the roots — so the two arrays of distances are
    XR and YR again. No finiteness of the inputs is needed for any of this.
  * The kernel halves by multiplying with 1/2 where the reference divides by 2: the same on every extended real.
  The three frame claims are the generated frames (for the reference: its generated run with the result dropped); the
  idealization rewrote nothing, so the fourth claim is trivial.
-/
import proofs.«113054_j11544872092235_2_alg».proof.Defs
import proofs.«113054_j11544872092235_2_alg».proof.Proof.Gen.Kernel
import proofs.«113054_j11544872092235_2_alg».proof.Proof.Gen.Kernel.Frame
import proofs.«113054_j11544872092235_2_alg».proof.Proof.Gen.KernelIdeal
import proofs.«113054_j11544872092235_2_alg».proof.Proof.Gen.KernelIdeal.Frame
import proofs.«113054_j11544872092235_2_alg».proof.Proof.Gen.ReferenceIdeal
import proofs.«113054_j11544872092235_2_alg».proof.Proof.Gen.ReferenceIdeal.Run
import proofs.«113054_j11544872092235_2_alg».proof.Proof.Gen.ReferenceIdeal.Read
import proofs.«113054_j11544872092235_2_alg».proof.Proof.Gen.Pre_finite_inputs
import proofs.«113054_j11544872092235_2_alg».proof.Proof.KernelRun
import proofs.«113054_j11544872092235_2_alg».proof.Proof.RefRead
import Idealize.ShloMosaic.Adequacy
import Idealize.ShloMosaic.Init

noncomputable section

namespace Cert.Proof

open Idealize.ShloMosaic Idealize.SL.Sem

/-- Halving a vector of 8 entries: the product with 1/2 is the quotient by 2. -/
theorem half_arr (Z : FVec Ideal Cert.KernelIdeal.S8 .f32) :
    mulf Z (broadcastInDim Cert.KernelIdeal.S8 ![] Cert.KernelIdeal.Gen.bcast_S_S8
        (constant (F := Ideal) Cert.KernelIdeal.S_ .f32 0x3F000000#32))
      = Host.divf Z (broadcastInDim Cert.KernelIdeal.S8 ![] Cert.KernelIdeal.Gen.bcast_S_S8
        (constant (F := Ideal) Cert.KernelIdeal.S_ .f32 0x40000000#32)) := by
  funext i
  show Z i * _ = Ideal.div (Z i) _
  rw [broadcastInDim_apply _ Cert.KernelIdeal.Gen.bcast_S_S8 _ i (fun a => a.elim0) (fun a => a.elim0),
    broadcastInDim_apply _ Cert.KernelIdeal.Gen.bcast_S_S8 _ i (fun a => a.elim0) (fun a => a.elim0)]
  exact Cert.Lib.SqrtInf.mul_half (Z i)

/-- The two programs end with the same function of the two arrays of distances. -/
theorem tails_eq (A B : (⟨2, ![8, 2048]⟩ : Shape).Idx → EReal) : Chamfer.kTail A B = Chamfer.Ref.rTail A B := by
  unfold Chamfer.kTail
  rw [half_arr]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the same mean of nearest-point distances. -/
theorem algebraic : Cert.algebraic_KernelIdeal_ReferenceIdeal := by
  intro m ρ m' ρ' _ hagree
  refine ⟨_, Chamfer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Chamfer.Ref.v20_eq, (hagree c).1, (hagree c).2]
  exact (tails_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
